-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x30 : Shape := ⟨3, ![2, 1024, 30]⟩
abbrev S60x64 : Shape := ⟨2, ![60, 64]⟩
abbrev S64 : Shape := ⟨1, ![64]⟩
abbrev S64x30 : Shape := ⟨2, ![64, 30]⟩
abbrev S30 : Shape := ⟨1, ![30]⟩
abbrev S_ : Shape := ⟨0, ![]⟩

class Facts : Prop where
  bcast_S_S2x1024x30 : S_.BroadcastsInDim S2x1024x30 (![] : Fin 0 → Fin S2x1024x30.rank)
  reducesTo_S2x1024x30_S_d0_1_2 : S2x1024x30.ReducesTo [0, 1, 2] S_
  h_S_ : 0 < S_.numel
  bcast_S_S60x64 : S_.BroadcastsInDim S60x64 (![] : Fin 0 → Fin S60x64.rank)
  reducesTo_S60x64_S_d0_1 : S60x64.ReducesTo [0, 1] S_
  bcast_S_S64 : S_.BroadcastsInDim S64 (![] : Fin 0 → Fin S64.rank)
  reducesTo_S64_S_d0 : S64.ReducesTo [0] S_
  bcast_S_S64x30 : S_.BroadcastsInDim S64x30 (![] : Fin 0 → Fin S64x30.rank)
  reducesTo_S64x30_S_d0_1 : S64x30.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_arg4 : FVec F S30 .f32) (main_v13 : IVec S_ 1) (main_v16 : IVec S64x30 1) : IVec S_ 1 :=
  let main_c_5 : IVec S_ 1 := constantI S_ 1 1#1
  let main_v17 : IVec S_ 1 := (fun x v => Host.reduce IntOp.andi x v reducesTo_S64x30_S_d0_1 h_S_) main_v16 main_c_5
  let main_v18 : IVec S_ 1 := andi main_v13 main_v17
  let main_v19 : FVec F S30 .f32 := Host.absf main_arg4
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  main_v23

def fn {F : FTy → Type} [FloatOps F] (main_arg0 : FVec F S2x1024x30 .f32) (main_arg1 : FVec F S60x64 .f32) (main_arg2 : FVec F S64 .f32) (main_arg3 : FVec F S64x30 .f32) (main_arg4 : FVec F S30 .f32) : IVec S_ 1 :=
  let main_v0 : FVec F S2x1024x30 .f32 := Host.absf main_arg0
  let main_cst : FVec F S_ .f32 := constant S_ .f32 0x7F800000#32
  let main_v1 : FVec F S2x1024x30 .f32 := broadcastInDim S2x1024x30 ![] bcast_S_S2x1024x30 main_cst
  let main_v2 : IVec S2x1024x30 1 := cmpf .olt main_v0 main_v1
  let main_c : IVec S_ 1 := constantI S_ 1 1#1
  let main_v3 : IVec S_ 1 := (fun x v => Host.reduce IntOp.andi x v reducesTo_S2x1024x30_S_d0_1_2 h_S_) main_v2 main_c
  let main_v4 : FVec F S60x64 .f32 := Host.absf main_arg1
  let main_cst_0 : FVec F S_ .f32 := constant S_ .f32 0x7F800000#32
  let main_v5 : FVec F S60x64 .f32 := broadcastInDim S60x64 ![] bcast_S_S60x64 main_cst_0
  let main_v6 : IVec S60x64 1 := cmpf .olt main_v4 main_v5
  let main_c_1 : IVec S_ 1 := constantI S_ 1 1#1
  let main_v7 : IVec S_ 1 := (fun x v => Host.reduce IntOp.andi x v reducesTo_S60x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x30 .f32 := Host.absf main_arg3
  let main_cst_4 : FVec F S_ .f32 := constant S_ .f32 0x7F800000#32
  let main_v15 : FVec F S64x30 .f32 := broadcastInDim S64x30 ![] bcast_S_S64x30 main_cst_4
  let main_v16 : IVec S64x30 1 := cmpf .olt main_v14 main_v15
  fn_part1 (F := F) main_arg4 main_v13 main_v16
-- ==== Kernel.lean ====
abbrev S2x1024x30 : Shape := ⟨3, ![2, 1024, 30]⟩
abbrev S60x64 : Shape := ⟨2, ![60, 64]⟩
abbrev S64 : Shape := ⟨1, ![64]⟩
abbrev S64x30 : Shape := ⟨2, ![64, 30]⟩
abbrev S30 : Shape := ⟨1, ![30]⟩
abbrev S30x64 : Shape := ⟨2, ![30, 64]⟩
abbrev S1x128x30 : Shape := ⟨3, ![1, 128, 30]⟩
abbrev S1x1024x30 : Shape := ⟨3, ![1, 1024, 30]⟩
abbrev S128x30 : Shape := ⟨2, ![128, 30]⟩
abbrev S128x64 : Shape := ⟨2, ![128, 64]⟩
abbrev S1x64 : Shape := ⟨2, ![1, 64]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x30 : Shape := ⟨2, ![1, 30]⟩

abbrev nBuf : Space → Nat
  | .hbm => 8
  | .vmem => 11
  | .smem => 0
  | _ => 0

abbrev bufTy : (tb : Table) → Fin (tcTables nBuf tb) → BufTy
  | .hbm, ⟨0, _⟩ => ⟨S2x1024x30, .f32⟩
  | .hbm, ⟨1, _⟩ => ⟨S60x64, .f32⟩
  | .hbm, ⟨2, _⟩ => ⟨S64, .f32⟩
  | .hbm, ⟨3, _⟩ => ⟨S64x30, .f32⟩
  | .hbm, ⟨4, _⟩ => ⟨S30, .f32⟩
  | .hbm, ⟨5, _⟩ => ⟨S30x64, .f32⟩
  | .hbm, ⟨6, _⟩ => ⟨S30x64, .f32⟩
  | .hbm, ⟨7, _⟩ => ⟨S2x1024x30, .f32⟩
  | .local _ .vmem, ⟨0, _⟩ => ⟨S1x128x30, .f32⟩
  | .local _ .vmem, ⟨1, _⟩ => ⟨S1x128x30, .f32⟩
  | .local _ .vmem, ⟨2, _⟩ => ⟨S1x1024x30, .f32⟩
  | .local _ .vmem, ⟨3, _⟩ => ⟨S1x1024x30, .f32⟩
  | .local _ .vmem, ⟨4, _⟩ => ⟨S30x64, .f32⟩
  | .local _ .vmem, ⟨5, _⟩ => ⟨S30x64, .f32⟩
  | .local _ .vmem, ⟨6, _⟩ => ⟨S64, .f32⟩
  | .local _ .vmem, ⟨7, _⟩ => ⟨S64x30, .f32⟩
  | .local _ .vmem, ⟨8, _⟩ => ⟨S30, .f32⟩
  | .local _ .vmem, ⟨9, _⟩ => ⟨S1x128x30, .f32⟩
  | .local _ .vmem, ⟨10, _⟩ => ⟨S1x128x30, .f32⟩
  | _, _ => ⟨S2x1024x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  v24
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let c128_i32 : BitVec 32 := 128#32
  let v26 : BitVec 32 := Scalar.addi v25 c128_i32
  v26
def k0_off1 (k0_t1 : Fin k0_t1_loop.trips) : Fin 3 → Nat :=
  let c0_15 : Index := 0#32
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let v28 : Index := Scalar.indexCast v25
  let c0_16 : Index := 0#32
  ![0, v28.toNat, 0]
def k0_off2 (k0_t1 : Fin k0_t1_loop.trips) : Fin 3 → Nat :=
  let c0_17 : Index := 0#32
  let c0_i32 : BitVec 32 := 0#32
  let c1_i32 : BitVec 32 := 1#32
  let arg10 : BitVec 32 := Scf.iv c0_i32 c1_i32 k0_t1
  let c256_i32 : BitVec 32 := 256#32
  let v24 : BitVec 32 := Scalar.muli arg10 c256_i32
  let v25 : BitVec 32 := v24
  let c128_i32 : BitVec 32 := 128#32
  let v26 : BitVec 32 := Scalar.addi v25 c128_i32
  let v27 : BitVec 32 := v26
  let v31 : Index := Scalar.indexCast v27
  let c0_18 : Index := 0#32
  ![0, v31.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S30x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S30x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x30 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S60x64_S30x64_0_0 : S60x64.Slices ![0, 0] S30x64
  slices_S60x64_S30x64_30_0 : S60x64.Slices ![30, 0] S30x64
  inb_S1x128x30_S1x128x30_0_0_0 : ∀ a, (![0, 0, 0] : Fin 3 → Nat) a + S1x128x30.size a ≤ S1x128x30.size a
  h_S1x128x30 : 0 < S1x128x30.numel
  shapeCasts_S1x128x30_S128x30 : S1x128x30.ShapeCasts S128x30
  inb_S30x64_S30x64_0_0 : ∀ a, (![0, 0] : Fin 2 → Nat) a + S30x64.size a ≤ S30x64.size a
  h_S30x64 : 0 < S30x64.numel
  shapeCasts_S30x64_S30x64 : S30x64.ShapeCasts S30x64
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  concatenates_S128x64_S128x64_S128x128_d1 : Shape.Concatenates [S128x64, S128x64] S128x128 1
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [1] S128x128
  slices_S128x128_o0_0_S128x64 : S128x128.Slices ![0, 0] S128x64
  slices_S128x128_o0_64_S128x64 : S128x128.Slices ![0, 64] S128x64
  inb_S64x30_S64x30_0_0 : ∀ a, (![0, 0] : Fin 2 → Nat) a + S64x30.size a ≤ S64x30.size a
  h_S64x30 : 0 < S64x30.numel
  inb_S30_S30_0 : ∀ a, (![0] : Fin 1 → Nat) a + S30.size a ≤ S30.size a
  h_S30 : 0 < S30.numel
  shapeCasts_S30_S1x30 : S30.ShapeCasts S1x30
  broadcasts_S1x30_S128x30 : S1x30.Broadcasts S128x30
  shapeCasts_S128x30_S1x128x30 : S128x30.ShapeCasts S1x128x30
  dot_S128x30_S30x64_S128x64_1_0_0_1_n_n_wf : DotDims.WF S128x30 S30x64 S128x64 [1] [0] [0] [1] [] []
  dot_S128x64_S64x30_S128x30_1_0_0_1_n_n_wf : DotDims.WF S128x64 S64x30 S128x30 [1] [0] [0] [1] [] []
  hrank0 : 0 < grid0.rank
  k0_t1_ok : k0_t1_loop.OK
  k0_mult1_dvd : ∀ k0_t1 : Fin k0_t1_loop.trips, 256 ∣ (k0_mult1 k0_t1).toNat
  k0_mult2_dvd : ∀ k0_t1 : Fin k0_t1_loop.trips, 128 ∣ (k0_mult2 k0_t1).toNat
  k0_off1_inb : ∀ k0_t1 : Fin k0_t1_loop.trips, ∀ a, (k0_off1 k0_t1) a + S1x128x30.size a ≤ S1x1024x30.size a
  k0_off2_inb : ∀ k0_t1 : Fin k0_t1_loop.trips, ∀ a, (k0_off2 k0_t1) a + S1x128x30.size a ≤ S1x1024x30.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x30.size a ≤ S2x1024x30.size a
  hwx0_0 : ∀ i : grid0.Coords, EltTy.bits .f32 = 32 ∨ (Rect.block (s := S2x1024x30) S1x128x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x30.size a ≤ S2x1024x30.size a
  hwx0_1 : ∀ i : grid0.Coords, EltTy.bits .f32 = 32 ∨ (Rect.block (s := S2x1024x30) S1x1024x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x64.size a ≤ S30x64.size a
  hwx0_2 : ∀ i : grid0.Coords, EltTy.bits .f32 = 32 ∨ (Rect.block (s := S30x64) S30x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x64.size a ≤ S30x64.size a
  hwx0_3 : ∀ i : grid0.Coords, EltTy.bits .f32 = 32 ∨ (Rect.block (s := S30x64) S30x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x30.size a ≤ S64x30.size a
  hwx0_5 : ∀ i : grid0.Coords, EltTy.bits .f32 = 32 ∨ (Rect.block (s := S64x30) S64x30.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S30.size a ≤ S30.size a
  hwx0_6 : ∀ i : grid0.Coords, EltTy.bits .f32 = 32 ∨ (Rect.block (s := S30) S30.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x30.size a ≤ S2x1024x30.size a
  hwx0_7 : ∀ i : grid0.Coords, EltTy.bits .f32 = 32 ∨ (Rect.block (s := S2x1024x30) S1x128x30.size (cc0_transform_7 i) (hinb0_7 i)).WholeWords (EltTy.packing .f32)

variable [Facts₀]

def dot_S128x30_S30x64_S128x64_1_0_0_1_n_n : DotDims S128x30 S30x64 S128x64 where
  lhsContracting := [1]
  rhsContracting := [0]
  lhsNonContracting := [0]
  rhsNonContracting := [1]
  lhsBatch := []
  rhsBatch := []
  wf := dot_S128x30_S30x64_S128x64_1_0_0_1_n_n_wf
def dot_S128x64_S64x30_S128x30_1_0_0_1_n_n : DotDims S128x64 S64x30 S128x30 where
  lhsContracting := [1]
  rhsContracting := [0]
  lhsNonContracting := [0]
  rhsNonContracting := [1]
  lhsBatch := []
  rhsBatch := []
  wf := dot_S128x64_S64x30_S128x30_1_0_0_1_n_n_wf

abbrev win0_0 : Pipeline.Window sig grid0 :=
  Pipeline.Window.ofSpec (Memref.whole main_arg0) S1x128x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S30x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S30x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x30.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S30.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128x30.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x1024x30 : Shape := ⟨3, ![2, 1024, 30]⟩
abbrev S60x64 : Shape := ⟨2, ![60, 64]⟩
abbrev S64 : Shape := ⟨1, ![64]⟩
abbrev S64x30 : Shape := ⟨2, ![64, 30]⟩
abbrev S30 : Shape := ⟨1, ![30]⟩
abbrev S30x64 : Shape := ⟨2, ![30, 64]⟩
abbrev S2x1024x64 : Shape := ⟨3, ![2, 1024, 64]⟩
abbrev S2x1024x1x64 : Shape := ⟨4, ![2, 1024, 1, 64]⟩
abbrev S2x1x1024x64 : Shape := ⟨4, ![2, 1, 1024, 64]⟩
abbrev S2x1024x1024x64 : Shape := ⟨4, ![2, 1024, 1024, 64]⟩
abbrev S1x1x1x64 : Shape := ⟨4, ![1, 1, 1, 64]⟩
abbrev S_ : Shape := ⟨0, ![]⟩
abbrev S1x1x30 : Shape := ⟨3, ![1, 1, 30]⟩

abbrev nBuf : Space → Nat
  | .hbm => 29
  | .vmem => 0
  | .smem => 0
  | _ => 0

abbrev bufTy : (tb : Table) → Fin (tcTables nBuf tb) → BufTy
  | .hbm, ⟨0, _⟩ => ⟨S2x1024x30, .f32⟩
  | .hbm, ⟨1, _⟩ => ⟨S60x64, .f32⟩
  | .hbm, ⟨2, _⟩ => ⟨S64, .f32⟩
  | .hbm, ⟨3, _⟩ => ⟨S64x30, .f32⟩
  | .hbm, ⟨4, _⟩ => ⟨S30, .f32⟩
  | .hbm, ⟨5, _⟩ => ⟨S30x64, .f32⟩
  | .hbm, ⟨6, _⟩ => ⟨S2x1024x64, .f32⟩
  | .hbm, ⟨7, _⟩ => ⟨S30x64, .f32⟩
  | .hbm, ⟨8, _⟩ => ⟨S2x1024x64, .f32⟩
  | .hbm, ⟨9, _⟩ => ⟨S2x1024x1x64, .f32⟩
  | .hbm, ⟨10, _⟩ => ⟨S2x1x1024x64, .f32⟩
  | .hbm, ⟨11, _⟩ => ⟨S2x1024x1024x64, .f32⟩
  | .hbm, ⟨12, _⟩ => ⟨S2x1024x1024x64, .f32⟩
  | .hbm, ⟨13, _⟩ => ⟨S2x1024x1024x64, .f32⟩
  | .hbm, ⟨14, _⟩ => ⟨S1x1x1x64, .f32⟩
  | .hbm, ⟨15, _⟩ => ⟨S2x1024x1024x64, .f32⟩
  | .hbm, ⟨16, _⟩ => ⟨S2x1024x1024x64, .f32⟩
  | .hbm, ⟨17, _⟩ => ⟨S_, .f32⟩
  | .hbm, ⟨18, _⟩ => ⟨S2x1024x1024x64, .f32⟩
  | .hbm, ⟨19, _⟩ => ⟨S2x1024x1024x64, .f32⟩
  | .hbm, ⟨20, _⟩ => ⟨S_, .f32⟩
  | .hbm, ⟨21, _⟩ => ⟨S2x1024x64, .f32⟩
  | .hbm, ⟨22, _⟩ => ⟨S2x1024x30, .f32⟩
  | .hbm, ⟨23, _⟩ => ⟨S1x1x30, .f32⟩
  | .hbm, ⟨24, _⟩ => ⟨S2x1024x30, .f32⟩
  | .hbm, ⟨25, _⟩ => ⟨S2x1024x30, .f32⟩
  | .hbm, ⟨26, _⟩ => ⟨S_, .f32⟩
  | .hbm, ⟨27, _⟩ => ⟨S2x1024x30, .f32⟩
  | .hbm, ⟨28, _⟩ => ⟨S2x1024x30, .f32⟩
  | _, _ => ⟨S2x1024x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_cst : Ref sig .tc := ⟨.hbm, 26, rfl⟩
abbrev main_call1_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  slices_S60x64_S30x64_0_0 : S60x64.Slices ![0, 0] S30x64
  slices_S60x64_S30x64_30_0 : S60x64.Slices ![30, 0] S30x64
  bcast_S2x1024x64_S2x1024x1x64_0_1_3 : S2x1024x64.BroadcastsInDim S2x1024x1x64 (![0, 1, 3] : Fin 3 → Fin S2x1024x1x64.rank)
  bcast_S2x1024x64_S2x1x1024x64_0_2_3 : S2x1024x64.BroadcastsInDim S2x1x1024x64 (![0, 2, 3] : Fin 3 → Fin S2x1x1024x64.rank)
  bcast_S2x1024x1x64_S2x1024x1024x64_0_1_2_3 : S2x1024x1x64.BroadcastsInDim S2x1024x1024x64 (![0, 1, 2, 3] : Fin 4 → Fin S2x1024x1024x64.rank)
  bcast_S2x1x1024x64_S2x1024x1024x64_0_1_2_3 : S2x1x1024x64.BroadcastsInDim S2x1024x1024x64 (![0, 1, 2, 3] : Fin 4 → Fin S2x1024x1024x64.rank)
  bcast_S64_S1x1x1x64_3 : S64.BroadcastsInDim S1x1x1x64 (![3] : Fin 1 → Fin S1x1x1x64.rank)
  bcast_S1x1x1x64_S2x1024x1024x64_0_1_2_3 : S1x1x1x64.BroadcastsInDim S2x1024x1024x64 (![0, 1, 2, 3] : Fin 4 → Fin S2x1024x1024x64.rank)
  bcast_S_S2x1024x1024x64 : S_.BroadcastsInDim S2x1024x1024x64 (![] : Fin 0 → Fin S2x1024x1024x64.rank)
  reducesTo_S2x1024x1024x64_S2x1024x64_d2 : S2x1024x1024x64.ReducesTo [2] S2x1024x64
  h_S_ : 0 < S_.numel
  bcast_S30_S1x1x30_2 : S30.BroadcastsInDim S1x1x30 (![2] : Fin 1 → Fin S1x1x30.rank)
  bcast_S1x1x30_S2x1024x30_0_1_2 : S1x1x30.BroadcastsInDim S2x1024x30 (![0, 1, 2] : Fin 3 → Fin S2x1024x30.rank)
  bcast_S_S2x1024x30 : S_.BroadcastsInDim S2x1024x30 (![] : Fin 0 → Fin S2x1024x30.rank)
  dot_S2x1024x30_S30x64_S2x1024x64_2_0_01_1_n_n_wf : DotDims.WF S2x1024x30 S30x64 S2x1024x64 [2] [0] [0, 1] [1] [] []
  dot_S2x1024x64_S64x30_S2x1024x30_2_0_01_1_n_n_wf : DotDims.WF S2x1024x64 S64x30 S2x1024x30 [2] [0] [0, 1] [1] [] []

variable [Facts₀]

def dot_S2x1024x30_S30x64_S2x1024x64_2_0_01_1_n_n : DotDims S2x1024x30 S30x64 S2x1024x64 where
  lhsContracting := [2]
  rhsContracting := [0]
  lhsNonContracting := [0, 1]
  rhsNonContracting := [1]
  lhsBatch := []
  rhsBatch := []
  wf := dot_S2x1024x30_S30x64_S2x1024x64_2_0_01_1_n_n_wf
def dot_S2x1024x64_S64x30_S2x1024x30_2_0_01_1_n_n : DotDims S2x1024x64 S64x30 S2x1024x30 where
  lhsContracting := [2]
  rhsContracting := [0]
  lhsNonContracting := [0, 1]
  rhsNonContracting := [1]
  lhsBatch := []
  rhsBatch := []
  wf := dot_S2x1024x64_S64x30_S2x1024x30_2_0_01_1_n_n_wf

class Facts : Prop extends Facts₀ where

variable [Facts]
-- ==== Proof.K.Body.lean ====
/-
  The kernel's body at one grid point, for every float instance.

  A grid point (b, i) is handed eight staging buffers: the query tile z[b, 128 i .. 128 i + 127, :], the whole batch
  z[b, :, :], the two halves of the first weight table, its bias, the second weight table, its bias, and the result
  tile.  The body reads the first seven and overwrites the eighth.  Its counted loop runs four trips; trip k reads rows
  256 k .. 256 k + 255 of the batch in two chunks of 128 rows and adds both chunks' contributions to a carried
  [128, 64] accumulator, which starts at zero (`accTo`).  The result tile is the final payload of that accumulator
  (`out0_7`).
-/
import proofs.«156443_j12884901888249_2_alg».proof.Proof.Gen.Kernel.Launch
import proofs.«156443_j12884901888249_2_alg».proof.Proof.Gen.Kernel.Skeleton
import proofs.«156443_j12884901888249_2_alg».proof.Proof.Gen.Kernel.Points
import proofs.«156443_j12884901888249_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

abbrev rTile : Rect S1x128x30 := Rect.unit (s := S1x128x30) ![0, 0, 0] S1x128x30.size inb_S1x128x30_S1x128x30_0_0_0
abbrev rW : Rect S30x64 := Rect.unit (s := S30x64) ![0, 0] S30x64.size inb_S30x64_S30x64_0_0
abbrev rB : Rect S64 := Rect.unit (s := S64) ![0] S64.size inb_S64_S64_0
abbrev rWa : Rect S64x30 := Rect.unit (s := S64x30) ![0, 0] S64x30.size inb_S64x30_S64x30_0_0
abbrev rBa : Rect S30 := Rect.unit (s := S30) ![0] S30.size inb_S30_S30_0
/-- Trip `k`'s first chunk of the batch: rows from `256 k`. -/
abbrev rC1 (k : Fin k0_t1_loop.trips) : Rect S1x1024x30 := Rect.unit (s := S1x1024x30) (k0_off1 k) S1x128x30.size (k0_off1_inb k)
/-- Trip `k`'s second chunk: rows from `256 k + 128`. -/
abbrev rC2 (k : Fin k0_t1_loop.trips) : Rect S1x1024x30 := Rect.unit (s := S1x1024x30) (k0_off2 k) S1x128x30.size (k0_off2_inb k)

/-! ## The carried accumulator, trip by trip -/

/-- The accumulator before trip `n`, from the seven input buffers' contents: zero before the first trip; each trip adds
    its two chunks' contributions. -/
def accTo (x0 : Vec F S1x128x30 .f32) (x1 : Vec F S1x1024x30 .f32) (x2 x3 : Vec F S30x64 .f32) (x4 : Vec F S64 .f32) : ℕ → FVec F S128x64 .f32
  | 0 => k0_pay1
  | n + 1 => if h : n < k0_t1_loop.trips then
      k0_pay2 (View.ld x0 rTile) (View.ld x2 rW) (View.ld x4 rB) (accTo x0 x1 x2 x3 x4 n)
        (View.ld x1 (rC1 ⟨n, h⟩)) (View.ld x1 (rC2 ⟨n, h⟩)) (View.ld x3 rW) (View.ld x3 rW)
    else accTo x0 x1 x2 x3 x4 n

theorem accTo_succ (x0 : Vec F S1x128x30 .f32) (x1 : Vec F S1x1024x30 .f32) (x2 x3 : Vec F S30x64 .f32) (x4 : Vec F S64 .f32)
    (k : Fin k0_t1_loop.trips) :
    accTo x0 x1 x2 x3 x4 (k.val + 1)
      = k0_pay2 (View.ld x0 rTile) (View.ld x2 rW) (View.ld x4 rB) (accTo x0 x1 x2 x3 x4 k.val)
          (View.ld x1 (rC1 k)) (View.ld x1 (rC2 k)) (View.ld x3 rW) (View.ld x3 rW) := by
  rw [accTo]; exact dif_pos k.isLt

/-- What the body leaves in the result tile's buffer: its one store, of the final payload. -/
def out0_7 (x0 : Vec F S1x128x30 .f32) (x1 : Vec F S1x1024x30 .f32) (x2 x3 : Vec F S30x64 .f32) (x4 : Vec F S64 .f32)
    (x5 : Vec F S64x30 .f32) (x6 : Vec F S30 .f32) : Vec F S1x128x30 .f32 :=
  View.canon [⟨rTile, k0_pay3 (accTo x0 x1 x2 x3 x4 k0_t1_loop.trips) (View.ld x5 rWa) (View.ld x6 rBa)⟩]

/-- The one store covers the tile. -/
theorem cover0_7 (p0 : Vec F S1x128x30 .f32) (y : S1x128x30.Idx) :
    ∃ pc ∈ ([⟨rTile, p0⟩] : List (View.Piece (Elt F) S1x128x30 .f32)), y ∈ pc.1.set :=
  View.cover_of_tiled [⟨rTile, p0⟩] S1x128x30.size (by rfl) y

/-! ## The loop's carried value is `accTo` -/

section Loop

variable (𝒱 : Variants) (c : Dev nD) (bd : Option 𝒱.V) (i : grid0.Coords)
  (arg2 : Memref sig .tc .vmem S1x128x30 .f32) (harg2 : arg2.IsWhole) (arg3 : Memref sig .tc .vmem S1x1024x30 .f32) (harg3 : arg3.IsWhole)
  (arg4 : Memref sig .tc .vmem S30x64 .f32) (harg4 : arg4.IsWhole) (arg5 : Memref sig .tc .vmem S30x64 .f32) (harg5 : arg5.IsWhole)
  (arg6 : Memref sig .tc .vmem S64 .f32) (harg6 : arg6.IsWhole) (arg7 : Memref sig .tc .vmem S64x30 .f32) (harg7 : arg7.IsWhole)
  (arg8 : Memref sig .tc .vmem S30 .f32) (harg8 : arg8.IsWhole) (arg9 : Memref sig .tc .vmem S1x128x30 .f32) (harg9 : arg9.IsWhole)
  (v0 : Vec F S1x128x30 .f32) (v2 : Vec F S30x64 .f32) (v5 : Vec F S64 .f32)
  (X3 : BufTy.Contents (Elt F) arg3.view.ty) (X5 : BufTy.Contents (Elt F) arg5.view.ty)

unseal Cert.Kernel.Gen.trip_k0_t1 in
/-- One trip's yield, read off the trip's run: the trip's payload of the carried value and the two chunks loaded. -/
theorem tripR_eq (k : Fin k0_t1_loop.trips) (acc : FVec F S128x64 .f32) :
    tripR_k0_t1 (F := F) 𝒱 c bd i arg2 harg2 arg3 harg3 arg4 harg4 arg5 harg5 arg6 harg6 arg7 harg7 arg8 harg8 arg9 harg9 v0 v2 v5 X3 X5 k acc
      = k0_pay2 v0 v2 v5 acc (View.ld (arg3.view.read (Elt F) X3) (rC1 k)) (View.ld (arg3.view.read (Elt F) X3) (rC2 k))
          (View.ld (arg5.view.read (Elt F) X5) rW) (View.ld (arg5.view.read (Elt F) X5) rW) := by
  unfold tripR_k0_t1 trip_k0_t1
  rfl

/-- The carried value before trip `n` is `accTo … n`. -/
theorem st_eq (f0 : BufTy.Contents (Elt F) arg2.view.ty) (f2 : BufTy.Contents (Elt F) arg4.view.ty) (f4 : BufTy.Contents (Elt F) arg6.view.ty) :
    ∀ n, n ≤ k0_t1_loop.trips →
      st_k0_t1 (F := F) 𝒱 c bd i arg2 harg2 arg3 harg3 arg4 harg4 arg5 harg5 arg6 harg6 arg7 harg7 arg8 harg8 arg9 harg9
          (View.ld (arg2.view.read (Elt F) f0) rTile) (View.ld (arg4.view.read (Elt F) f2) rW) (View.ld (arg6.view.read (Elt F) f4) rB) X3 X5 (k0_pay1 (F := F)) n
        = accTo (arg2.view.read (Elt F) f0) (arg3.view.read (Elt F) X3) (arg4.view.read (Elt F) f2) (arg5.view.read (Elt F) X5) (arg6.view.read (Elt F) f4) n := by
  intro n
  induction n with
  | zero => intro _; rfl
  | succ n ih =>
    intro hn
    have h := st_k0_t1_succ (F := F) 𝒱 c bd i arg2 harg2 arg3 harg3 arg4 harg4 arg5 harg5 arg6 harg6 arg7 harg7 arg8 harg8 arg9 harg9
      (View.ld (arg2.view.read (Elt F) f0) rTile) (View.ld (arg4.view.read (Elt F) f2) rW) (View.ld (arg6.view.read (Elt F) f4) rB) X3 X5 (k0_pay1 (F := F)) ⟨n, hn⟩
    refine h.trans ?_
    rw [tripR_eq, ih (Nat.le_of_succ_le hn)]
    exact (accTo_succ _ _ _ _ _ ⟨n, hn⟩).symm

end Loop

/-! ## The body's triple -/

set_option maxHeartbeats 4000000 in
/-- On whole staging memrefs, the seven inputs at read contents `x0 … x6` and the result's at anything, the body runs to
    the continuation holding the inputs as they were and the result's buffer at `out0_7` of the inputs'. -/
theorem sound_kernel (c : Dev nD) (E : Set ℕ) (i : grid0.Coords)
    (arg2 : Memref sig .tc .vmem S1x128x30 .f32) (harg2 : arg2.IsWhole) (arg3 : Memref sig .tc .vmem S1x1024x30 .f32) (harg3 : arg3.IsWhole)
    (arg4 : Memref sig .tc .vmem S30x64 .f32) (harg4 : arg4.IsWhole) (arg5 : Memref sig .tc .vmem S30x64 .f32) (harg5 : arg5.IsWhole)
    (arg6 : Memref sig .tc .vmem S64 .f32) (harg6 : arg6.IsWhole) (arg7 : Memref sig .tc .vmem S64x30 .f32) (harg7 : arg7.IsWhole)
    (arg8 : Memref sig .tc .vmem S30 .f32) (harg8 : arg8.IsWhole) (arg9 : Memref sig .tc .vmem S1x128x30 .f32) (harg9 : arg9.IsWhole)
    (x0 : Vec F S1x128x30 .f32) (x1 : Vec F S1x1024x30 .f32) (x2 x3 : Vec F S30x64 .f32) (x4 : Vec F S64 .f32)
    (x5 : Vec F S64x30 .f32) (x6 : Vec F S30 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E
          (cc0__gnn_kernel i arg2 harg2 arg3 harg3 arg4 harg4 arg5 harg5 arg6 harg6 arg7 harg7 arg8 harg8 arg9 harg9) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover0_7 _)).trans ?_
  have hst := st_eq Variants.none c none i arg2 harg2 arg3 harg3 arg4 harg4 arg5 harg5 arg6 harg6 arg7 harg7 arg8 harg8 arg9 harg9 f1 f3 f0 f2 f4
    k0_t1_loop.trips le_rfl
  unfold out0_7
  rw [← hst]
  rfl

variable (m : (ℓ : Loc nD τ sig) → Buf (Elt F) ℓ) (ρ : Dev nD → PrngReg)

/-! ## @main up to the region -/

/-- Core `c`'s buffers when the region is entered: after the two slices of the weight table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer neither slice writes is found as launched. -/
theorem V_of_not_written (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem V_main_arg0 (c : Dev nD) : V m c main_arg0 = m ((c : Thread nD τ).loc main_arg0) := V_of_not_written m c _ (by decide) (by decide)
theorem V_main_arg1 (c : Dev nD) : V m c main_arg1 = m ((c : Thread nD τ).loc main_arg1) := V_of_not_written m c _ (by decide) (by decide)
theorem V_main_arg2 (c : Dev nD) : V m c main_arg2 = m ((c : Thread nD τ).loc main_arg2) := V_of_not_written m c _ (by decide) (by decide)
theorem V_main_arg3 (c : Dev nD) : V m c main_arg3 = m ((c : Thread nD τ).loc main_arg3) := V_of_not_written m c _ (by decide) (by decide)
theorem V_main_arg4 (c : Dev nD) : V m c main_arg4 = m ((c : Thread nD τ).loc main_arg4) := V_of_not_written m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`: the arrays as the region finds them; after the body at point `t` each input's buffer at
    its block and the result's at `out0_7` of the input blocks; the invariant the core's scoped buffers that are no staging buffer; nothing owed.  The batch array is
    read through two windows, the query tile's and the whole batch's: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The whole program's run, for every float instance: the two slices of the weight table, then the kernel region at
  each of the sixteen grid points, from any memory.

  The batch array is read by two windows, so the launch deals its full points-to in two halves, one per window; every
  other array is held whole by its one window.  At the end each window's array holds what the write-backs made of
  it, and the one buffer no window names (the weight table) holds what it held.
-/
import proofs.«156443_j12884901888249_2_alg».proof.Proof.K.Body
import Idealize.ShloMosaic.Lib.Pipeline.Launch
import Idealize.ShloMosaic.Lib.Pipeline.Frame

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays. -/
theorem arrRefs_eq : Finset.univ.image (Pipeline.arrRef spec0)
    = {main_arg0, main_v0, main_v1, main_arg2, main_arg3, main_arg4, main_v2} := by decide

/-- The launch's whole buffers make the proof data's arrays: the batch array in two halves. -/
theorem hsplit (c : Dev nD) :
    (Pipeline.arrBufs spec0 c (V m c) : sProp 𝕄) ⊢ (dats m 0 c).arrays ((dats m 0 c).arrAt · 0) := by
  have harr : (dats m 0 c).arrays ((dats m 0 c).arrAt · 0)
      = bigSep Finset.univ fun w : Fin cfg0.W =>
          (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [harr, bigSep_W0]
  unfold Pipeline.arrBufs
  rw [arrRefs_eq, bigSep_insert (by decide), bigSep_insert (by decide), bigSep_insert (by decide), bigSep_insert (by decide),
    bigSep_insert (by decide), bigSep_insert (by decide), bigSep_singleton]
  show iprop((((c.tc : Thread nD τ).loc main_arg0) ↦{fullShare} V m c main_arg0)
    ∗ (((c.tc : Thread nD τ).loc main_v0) ↦{fullShare} V m c main_v0)
    ∗ (((c.tc : Thread nD τ).loc main_v1) ↦{fullShare} V m c main_v1)
    ∗ (((c.tc : Thread nD τ).loc main_arg2) ↦{fullShare} V m c main_arg2)
    ∗ (((c.tc : Thread nD τ).loc main_arg3) ↦{fullShare} V m c main_arg3)
    ∗ (((c.tc : Thread nD τ).loc main_arg4) ↦{fullShare} V m c main_arg4)
    ∗ (((c.tc : Thread nD τ).loc main_v2) ↦{fullShare} V m c main_v2))
   ⊢ iprop((((c.tc : Thread nD τ).loc main_arg0) ↦{fullShare.left} V m c main_arg0)
    ∗ (((c.tc : Thread nD τ).loc main_arg0) ↦{fullShare.right} V m c main_arg0)
    ∗ (((c.tc : Thread nD τ).loc main_v0) ↦{fullShare} V m c main_v0)
    ∗ (((c.tc : Thread nD τ).loc main_v1) ↦{fullShare} V m c main_v1)
    ∗ (((c.tc : Thread nD τ).loc main_arg2) ↦{fullShare} V m c main_arg2)
    ∗ (((c.tc : Thread nD τ).loc main_arg3) ↦{fullShare} V m c main_arg3)
    ∗ (((c.tc : Thread nD τ).loc main_arg4) ↦{fullShare} V m c main_arg4)
    ∗ (((c.tc : Thread nD τ).loc main_v2) ↦{fullShare} V m c main_v2))
  refine (sep_mono (pointsTo_share (PosShare.mem_left_op_right fullShare)).1 .rfl).trans ?_
  iintro ⟨⟨Hl, Hr⟩, Hv0, Hv1, Ha2, Ha3, Ha4, Hv2⟩
  isplitl [Hl]; · iexact Hl
  isplitl [Hr]; · iexact Hr
  isplitl [Hv0]; · iexact Hv0
  isplitl [Hv1]; · iexact Hv1
  isplitl [Ha2]; · iexact Ha2
  isplitl [Ha3]; · iexact Ha3
  isplitl [Ha4]; · iexact Ha4
  iexact Hv2

/-- What the run ends with: every window's array at what the write-backs made of it, and every unscoped buffer no window
    names as the region found it. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = V m c b

set_option backward.isDefEq.respectTransparency.types false in
/-- From any memory with zero counters every weakly fair execution of @main terminates, nothing faulting, in a state
    satisfying `RunPost`. -/
theorem run_main : θ_run defs (onTc (τ := τ) (main (F := F))) ⟨m, fun _ => 0, ρ⟩ (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => show iprop(emp ∗ Pipeline.scopedRest (Ix := Unit) (Name := ℕ) (U := UR sig nD τ) (Lvl := ℕ) (Val := Elt F) spec0 c)
        ⊢ (Pipeline.scopedRest (Ix := Unit) (Name := ℕ) (U := UR sig nD τ) (Lvl := ℕ) (Val := Elt F) spec0 c : sProp 𝕄) from by
      iintro ⟨-, HR⟩; iexact HR)
    (hout := fun c => show (Pipeline.scopedRest (Ix := Unit) (Name := ℕ) (U := UR sig nD τ) (Lvl := ℕ) (Val := Elt F) spec0 c : sProp 𝕄)
        ⊢ iprop(emp ∗ Pipeline.scopedRest (Ix := Unit) (Name := ℕ) (U := UR sig nD τ) (Lvl := ℕ) (Val := Elt F) spec0 c) from by
      iintro HR
      isplitr; · iempintro
      iexact HR)
    (QY := fun c s => ∀ b ∈ Pipeline.restRefs sig spec0, s.mem ((c.tc : Thread nD τ).loc b) = V m c b)
    (hY := fun c s' => by
      unfold Pipeline.unscopedRest
      iintro ⟨-, HU, HSI⟩
      imodintro
      iapply (pointsTo_read_all (Pipeline.restRefs sig spec0) (fun b => (c.tc : Thread nD τ).loc b) (V m c) s')
      isplitl [HU] <;> iassumption)
    (hQ := fun s h => h)

/-- The argument arrays end as launched: the four that windows stage are inputs, never written; the weight table bypasses
    the region, and neither slice before it writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c)))⟩) (run_main m ρ)

end Cert.Kernel.Hand

end
-- ==== Proof.KI.Body.lean ====
/-
  The kernel's body at one grid point, for every float instance.

  A grid point (b, i) is handed eight staging buffers: the query tile z[b, 128 i .. 128 i + 127, :], the whole batch
  z[b, :, :], the two halves of the first weight table, its bias, the second weight table, its bias, and the result
  tile.  The body reads the first seven and overwrites the eighth.  Its counted loop runs four trips; trip k reads rows
  256 k .. 256 k + 255 of the batch in two chunks of 128 rows and adds both chunks' contributions to a carried
  [128, 64] accumulator, which starts at zero (`accTo`).  The result tile is the final payload of that accumulator
  (`out0_7`).
-/
import proofs.«156443_j12884901888249_2_alg».proof.Proof.K.Run
import proofs.«156443_j12884901888249_2_alg».proof.Proof.Gen.KernelIdeal.Launch
import proofs.«156443_j12884901888249_2_alg».proof.Proof.Gen.KernelIdeal.Skeleton
import proofs.«156443_j12884901888249_2_alg».proof.Proof.Gen.KernelIdeal.Points
import proofs.«156443_j12884901888249_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

abbrev rTile : Rect S1x128x30 := Rect.unit (s := S1x128x30) ![0, 0, 0] S1x128x30.size inb_S1x128x30_S1x128x30_0_0_0
abbrev rW : Rect S30x64 := Rect.unit (s := S30x64) ![0, 0] S30x64.size inb_S30x64_S30x64_0_0
abbrev rB : Rect S64 := Rect.unit (s := S64) ![0] S64.size inb_S64_S64_0
abbrev rWa : Rect S64x30 := Rect.unit (s := S64x30) ![0, 0] S64x30.size inb_S64x30_S64x30_0_0
abbrev rBa : Rect S30 := Rect.unit (s := S30) ![0] S30.size inb_S30_S30_0
/-- Trip `k`'s first chunk of the batch: rows from `256 k`. -/
abbrev rC1 (k : Fin k0_t1_loop.trips) : Rect S1x1024x30 := Rect.unit (s := S1x1024x30) (k0_off1 k) S1x128x30.size (k0_off1_inb k)
/-- Trip `k`'s second chunk: rows from `256 k + 128`. -/
abbrev rC2 (k : Fin k0_t1_loop.trips) : Rect S1x1024x30 := Rect.unit (s := S1x1024x30) (k0_off2 k) S1x128x30.size (k0_off2_inb k)

/-! ## The carried accumulator, trip by trip -/

/-- The accumulator before trip `n`, from the seven input buffers' contents: zero before the first trip; each trip adds
    its two chunks' contributions. -/
def accTo (x0 : Vec F S1x128x30 .f32) (x1 : Vec F S1x1024x30 .f32) (x2 x3 : Vec F S30x64 .f32) (x4 : Vec F S64 .f32) : ℕ → FVec F S128x64 .f32
  | 0 => k0_pay1
  | n + 1 => if h : n < k0_t1_loop.trips then
      k0_pay2 (View.ld x0 rTile) (View.ld x2 rW) (View.ld x4 rB) (accTo x0 x1 x2 x3 x4 n)
        (View.ld x1 (rC1 ⟨n, h⟩)) (View.ld x1 (rC2 ⟨n, h⟩)) (View.ld x3 rW) (View.ld x3 rW)
    else accTo x0 x1 x2 x3 x4 n

theorem accTo_succ (x0 : Vec F S1x128x30 .f32) (x1 : Vec F S1x1024x30 .f32) (x2 x3 : Vec F S30x64 .f32) (x4 : Vec F S64 .f32)
    (k : Fin k0_t1_loop.trips) :
    accTo x0 x1 x2 x3 x4 (k.val + 1)
      = k0_pay2 (View.ld x0 rTile) (View.ld x2 rW) (View.ld x4 rB) (accTo x0 x1 x2 x3 x4 k.val)
          (View.ld x1 (rC1 k)) (View.ld x1 (rC2 k)) (View.ld x3 rW) (View.ld x3 rW) := by
  rw [accTo]; exact dif_pos k.isLt

/-- What the body leaves in the result tile's buffer: its one store, of the final payload. -/
def out0_7 (x0 : Vec F S1x128x30 .f32) (x1 : Vec F S1x1024x30 .f32) (x2 x3 : Vec F S30x64 .f32) (x4 : Vec F S64 .f32)
    (x5 : Vec F S64x30 .f32) (x6 : Vec F S30 .f32) : Vec F S1x128x30 .f32 :=
  View.canon [⟨rTile, k0_pay3 (accTo x0 x1 x2 x3 x4 k0_t1_loop.trips) (View.ld x5 rWa) (View.ld x6 rBa)⟩]

/-- The one store covers the tile. -/
theorem cover0_7 (p0 : Vec F S1x128x30 .f32) (y : S1x128x30.Idx) :
    ∃ pc ∈ ([⟨rTile, p0⟩] : List (View.Piece (Elt F) S1x128x30 .f32)), y ∈ pc.1.set :=
  View.cover_of_tiled [⟨rTile, p0⟩] S1x128x30.size (by rfl) y

/-! ## The loop's carried value is `accTo` -/

section Loop

variable (𝒱 : Variants) (c : Dev nD) (bd : Option 𝒱.V) (i : grid0.Coords)
  (arg2 : Memref sig .tc .vmem S1x128x30 .f32) (harg2 : arg2.IsWhole) (arg3 : Memref sig .tc .vmem S1x1024x30 .f32) (harg3 : arg3.IsWhole)
  (arg4 : Memref sig .tc .vmem S30x64 .f32) (harg4 : arg4.IsWhole) (arg5 : Memref sig .tc .vmem S30x64 .f32) (harg5 : arg5.IsWhole)
  (arg6 : Memref sig .tc .vmem S64 .f32) (harg6 : arg6.IsWhole) (arg7 : Memref sig .tc .vmem S64x30 .f32) (harg7 : arg7.IsWhole)
  (arg8 : Memref sig .tc .vmem S30 .f32) (harg8 : arg8.IsWhole) (arg9 : Memref sig .tc .vmem S1x128x30 .f32) (harg9 : arg9.IsWhole)
  (v0 : Vec F S1x128x30 .f32) (v2 : Vec F S30x64 .f32) (v5 : Vec F S64 .f32)
  (X3 : BufTy.Contents (Elt F) arg3.view.ty) (X5 : BufTy.Contents (Elt F) arg5.view.ty)

unseal Cert.KernelIdeal.Gen.trip_k0_t1 in
/-- One trip's yield, read off the trip's run: the trip's payload of the carried value and the two chunks loaded. -/
theorem tripR_eq (k : Fin k0_t1_loop.trips) (acc : FVec F S128x64 .f32) :
    tripR_k0_t1 (F := F) 𝒱 c bd i arg2 harg2 arg3 harg3 arg4 harg4 arg5 harg5 arg6 harg6 arg7 harg7 arg8 harg8 arg9 harg9 v0 v2 v5 X3 X5 k acc
      = k0_pay2 v0 v2 v5 acc (View.ld (arg3.view.read (Elt F) X3) (rC1 k)) (View.ld (arg3.view.read (Elt F) X3) (rC2 k))
          (View.ld (arg5.view.read (Elt F) X5) rW) (View.ld (arg5.view.read (Elt F) X5) rW) := by
  unfold tripR_k0_t1 trip_k0_t1
  rfl

/-- The carried value before trip `n` is `accTo … n`. -/
theorem st_eq (f0 : BufTy.Contents (Elt F) arg2.view.ty) (f2 : BufTy.Contents (Elt F) arg4.view.ty) (f4 : BufTy.Contents (Elt F) arg6.view.ty) :
    ∀ n, n ≤ k0_t1_loop.trips →
      st_k0_t1 (F := F) 𝒱 c bd i arg2 harg2 arg3 harg3 arg4 harg4 arg5 harg5 arg6 harg6 arg7 harg7 arg8 harg8 arg9 harg9
          (View.ld (arg2.view.read (Elt F) f0) rTile) (View.ld (arg4.view.read (Elt F) f2) rW) (View.ld (arg6.view.read (Elt F) f4) rB) X3 X5 (k0_pay1 (F := F)) n
        = accTo (arg2.view.read (Elt F) f0) (arg3.view.read (Elt F) X3) (arg4.view.read (Elt F) f2) (arg5.view.read (Elt F) X5) (arg6.view.read (Elt F) f4) n := by
  intro n
  induction n with
  | zero => intro _; rfl
  | succ n ih =>
    intro hn
    have h := st_k0_t1_succ (F := F) 𝒱 c bd i arg2 harg2 arg3 harg3 arg4 harg4 arg5 harg5 arg6 harg6 arg7 harg7 arg8 harg8 arg9 harg9
      (View.ld (arg2.view.read (Elt F) f0) rTile) (View.ld (arg4.view.read (Elt F) f2) rW) (View.ld (arg6.view.read (Elt F) f4) rB) X3 X5 (k0_pay1 (F := F)) ⟨n, hn⟩
    refine h.trans ?_
    rw [tripR_eq, ih (Nat.le_of_succ_le hn)]
    exact (accTo_succ _ _ _ _ _ ⟨n, hn⟩).symm

end Loop

/-! ## The body's triple -/

set_option maxHeartbeats 4000000 in
/-- On whole staging memrefs, the seven inputs at read contents `x0 … x6` and the result's at anything, the body runs to
    the continuation holding the inputs as they were and the result's buffer at `out0_7` of the inputs'. -/
theorem sound_kernel (c : Dev nD) (E : Set ℕ) (i : grid0.Coords)
    (arg2 : Memref sig .tc .vmem S1x128x30 .f32) (harg2 : arg2.IsWhole) (arg3 : Memref sig .tc .vmem S1x1024x30 .f32) (harg3 : arg3.IsWhole)
    (arg4 : Memref sig .tc .vmem S30x64 .f32) (harg4 : arg4.IsWhole) (arg5 : Memref sig .tc .vmem S30x64 .f32) (harg5 : arg5.IsWhole)
    (arg6 : Memref sig .tc .vmem S64 .f32) (harg6 : arg6.IsWhole) (arg7 : Memref sig .tc .vmem S64x30 .f32) (harg7 : arg7.IsWhole)
    (arg8 : Memref sig .tc .vmem S30 .f32) (harg8 : arg8.IsWhole) (arg9 : Memref sig .tc .vmem S1x128x30 .f32) (harg9 : arg9.IsWhole)
    (x0 : Vec F S1x128x30 .f32) (x1 : Vec F S1x1024x30 .f32) (x2 x3 : Vec F S30x64 .f32) (x4 : Vec F S64 .f32)
    (x5 : Vec F S64x30 .f32) (x6 : Vec F S30 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E
          (cc0__gnn_kernel i arg2 harg2 arg3 harg3 arg4 harg4 arg5 harg5 arg6 harg6 arg7 harg7 arg8 harg8 arg9 harg9) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover0_7 _)).trans ?_
  have hst := st_eq Variants.none c none i arg2 harg2 arg3 harg3 arg4 harg4 arg5 harg5 arg6 harg6 arg7 harg7 arg8 harg8 arg9 harg9 f1 f3 f0 f2 f4
    k0_t1_loop.trips le_rfl
  unfold out0_7
  rw [← hst]
  rfl

variable (m : (ℓ : Loc nD τ sig) → Buf (Elt F) ℓ) (ρ : Dev nD → PrngReg)

/-! ## @main up to the region -/

/-- Core `c`'s buffers when the region is entered: after the two slices of the weight table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer neither slice writes is found as launched. -/
theorem V_of_not_written (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

theorem V_main_arg0 (c : Dev nD) : V m c main_arg0 = m ((c : Thread nD τ).loc main_arg0) := V_of_not_written m c _ (by decide) (by decide)
theorem V_main_arg1 (c : Dev nD) : V m c main_arg1 = m ((c : Thread nD τ).loc main_arg1) := V_of_not_written m c _ (by decide) (by decide)
theorem V_main_arg2 (c : Dev nD) : V m c main_arg2 = m ((c : Thread nD τ).loc main_arg2) := V_of_not_written m c _ (by decide) (by decide)
theorem V_main_arg3 (c : Dev nD) : V m c main_arg3 = m ((c : Thread nD τ).loc main_arg3) := V_of_not_written m c _ (by decide) (by decide)
theorem V_main_arg4 (c : Dev nD) : V m c main_arg4 = m ((c : Thread nD τ).loc main_arg4) := V_of_not_written m c _ (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`: the arrays as the region finds them; after the body at point `t` each input's buffer at
    its block and the result's at `out0_7` of the input blocks; the invariant the core's scoped buffers that are no staging buffer; nothing owed.  The batch array is
    read through two windows, the query tile's and the whole batch's: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The whole program's run, for every float instance: the two slices of the weight table, then the kernel region at
  each of the sixteen grid points, from any memory.

  The batch array is read by two windows, so the launch deals its full points-to in two halves, one per window; every
  other array is held whole by its one window.  At the end each window's array holds what the write-backs made of
  it, and the one buffer no window names (the weight table) holds what it held.
-/
import proofs.«156443_j12884901888249_2_alg».proof.Proof.KI.Body
import Idealize.ShloMosaic.Lib.Pipeline.Launch
import Idealize.ShloMosaic.Lib.Pipeline.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays. -/
theorem arrRefs_eq : Finset.univ.image (Pipeline.arrRef spec0)
    = {main_arg0, main_v0, main_v1, main_arg2, main_arg3, main_arg4, main_v2} := by decide

/-- The launch's whole buffers make the proof data's arrays: the batch array in two halves. -/
theorem hsplit (c : Dev nD) :
    (Pipeline.arrBufs spec0 c (V m c) : sProp 𝕄) ⊢ (dats m 0 c).arrays ((dats m 0 c).arrAt · 0) := by
  have harr : (dats m 0 c).arrays ((dats m 0 c).arrAt · 0)
      = bigSep Finset.univ fun w : Fin cfg0.W =>
          (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [harr, bigSep_W0]
  unfold Pipeline.arrBufs
  rw [arrRefs_eq, bigSep_insert (by decide), bigSep_insert (by decide), bigSep_insert (by decide), bigSep_insert (by decide),
    bigSep_insert (by decide), bigSep_insert (by decide), bigSep_singleton]
  show iprop((((c.tc : Thread nD τ).loc main_arg0) ↦{fullShare} V m c main_arg0)
    ∗ (((c.tc : Thread nD τ).loc main_v0) ↦{fullShare} V m c main_v0)
    ∗ (((c.tc : Thread nD τ).loc main_v1) ↦{fullShare} V m c main_v1)
    ∗ (((c.tc : Thread nD τ).loc main_arg2) ↦{fullShare} V m c main_arg2)
    ∗ (((c.tc : Thread nD τ).loc main_arg3) ↦{fullShare} V m c main_arg3)
    ∗ (((c.tc : Thread nD τ).loc main_arg4) ↦{fullShare} V m c main_arg4)
    ∗ (((c.tc : Thread nD τ).loc main_v2) ↦{fullShare} V m c main_v2))
   ⊢ iprop((((c.tc : Thread nD τ).loc main_arg0) ↦{fullShare.left} V m c main_arg0)
    ∗ (((c.tc : Thread nD τ).loc main_arg0) ↦{fullShare.right} V m c main_arg0)
    ∗ (((c.tc : Thread nD τ).loc main_v0) ↦{fullShare} V m c main_v0)
    ∗ (((c.tc : Thread nD τ).loc main_v1) ↦{fullShare} V m c main_v1)
    ∗ (((c.tc : Thread nD τ).loc main_arg2) ↦{fullShare} V m c main_arg2)
    ∗ (((c.tc : Thread nD τ).loc main_arg3) ↦{fullShare} V m c main_arg3)
    ∗ (((c.tc : Thread nD τ).loc main_arg4) ↦{fullShare} V m c main_arg4)
    ∗ (((c.tc : Thread nD τ).loc main_v2) ↦{fullShare} V m c main_v2))
  refine (sep_mono (pointsTo_share (PosShare.mem_left_op_right fullShare)).1 .rfl).trans ?_
  iintro ⟨⟨Hl, Hr⟩, Hv0, Hv1, Ha2, Ha3, Ha4, Hv2⟩
  isplitl [Hl]; · iexact Hl
  isplitl [Hr]; · iexact Hr
  isplitl [Hv0]; · iexact Hv0
  isplitl [Hv1]; · iexact Hv1
  isplitl [Ha2]; · iexact Ha2
  isplitl [Ha3]; · iexact Ha3
  isplitl [Ha4]; · iexact Ha4
  iexact Hv2

/-- What the run ends with: every window's array at what the write-backs made of it, and every unscoped buffer no window
    names as the region found it. -/
def RunPost (r : PUnit × MemSt nD τ sig (Elt F)) : Prop :=
  ∀ c : Dev nD, (∀ w, r.2.mem (((cfgs 0).spec w).arr.view.loc (c.tc : Thread nD τ)) = (dats m 0 c).arrAt w (cfgs 0).N)
    ∧ ∀ b ∈ Pipeline.restRefs sig spec0, r.2.mem ((c.tc : Thread nD τ).loc b) = V m c b

set_option backward.isDefEq.respectTransparency.types false in
/-- From any memory with zero counters every weakly fair execution of @main terminates, nothing faulting, in a state
    satisfying `RunPost`. -/
theorem run_main : θ_run defs (onTc (τ := τ) (main (F := F))) ⟨m, fun _ => 0, ρ⟩ (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => show iprop(emp ∗ Pipeline.scopedRest (Ix := Unit) (Name := ℕ) (U := UR sig nD τ) (Lvl := ℕ) (Val := Elt F) spec0 c)
        ⊢ (Pipeline.scopedRest (Ix := Unit) (Name := ℕ) (U := UR sig nD τ) (Lvl := ℕ) (Val := Elt F) spec0 c : sProp 𝕄) from by
      iintro ⟨-, HR⟩; iexact HR)
    (hout := fun c => show (Pipeline.scopedRest (Ix := Unit) (Name := ℕ) (U := UR sig nD τ) (Lvl := ℕ) (Val := Elt F) spec0 c : sProp 𝕄)
        ⊢ iprop(emp ∗ Pipeline.scopedRest (Ix := Unit) (Name := ℕ) (U := UR sig nD τ) (Lvl := ℕ) (Val := Elt F) spec0 c) from by
      iintro HR
      isplitr; · iempintro
      iexact HR)
    (QY := fun c s => ∀ b ∈ Pipeline.restRefs sig spec0, s.mem ((c.tc : Thread nD τ).loc b) = V m c b)
    (hY := fun c s' => by
      unfold Pipeline.unscopedRest
      iintro ⟨-, HU, HSI⟩
      imodintro
      iapply (pointsTo_read_all (Pipeline.restRefs sig spec0) (fun b => (c.tc : Thread nD τ).loc b) (V m c) s')
      isplitl [HU] <;> iassumption)
    (hQ := fun s h => h)

/-- The argument arrays end as launched: the four that windows stage are inputs, never written; the weight table bypasses
    the region, and neither slice before it writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c)))⟩) (run_main m ρ)

end Cert.KernelIdeal.Hand

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibRankThree.lean ====
/-
  Rank-three arrays read at an index: the layout operations that add, drop or stretch a unit axis of an
  [a, b, c] array, and its one-axis reductions at the ideal values.

  * casts: [a, b] → [a, b, 1], [a, 1] → [a, 1, 1], [a, c] → [a, 1, c], [c] → [1, 1, c] — each reads the operand at the
    index with the unit coordinates dropped;
  * broadcasts: [a, b, 1] → [a, b, c], [a, 1, 1] → [a, b, 1], [a, 1, c] → [a, b, c], [1, 1, c] → [a, b, c] — each reads
    the operand with the stretched coordinates set to 0;
  * sums at the ideal values: along the last axis ([a, b, c] → [a, b]) and along the middle axis ([a, b, c] → [a, c]),
    each the sum over that axis's coordinate; the maximum along the middle axis of an [a, b, 1] array, a fold of max
    from the accumulator's value.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRankThree

open Idealize.ShloMosaic Idealize.ShloMosaic.ValueIdx

variable {α : Type}

/-! ## Casts that add unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` array cast to `[a, 1, 1]` reads, at `(i, u, u')`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu']; omega)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` array cast to `[1, 1, c]` reads, at `(u, u', k)`, the operand at `k`. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    rw [hu, hu']; omega)

/-! ## Broadcasts along unit axes -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, 1]` array broadcast to `[a, b, 1]` reads, at `(i, j, u)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## One-axis reductions at the ideal values -/

variable {φ : FTy}

/-- The sum of an `[a, b, c]` array along its last axis is, at `(i, j)`, the sum over `k` of the entries `(i, j, k)`. -/
theorem lastSum_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The sum of an `[a, b, c]` array along its middle axis is, at `(i, k)`, the sum over `j` of the entries `(i, j, k)`. -/
theorem midSum_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The maximum of an `[a, b, 1]` array along its middle axis is, at `(i, u)`, the fold of max from the accumulator's
    value over `j` of the entries `(i, j, 0)`. -/
theorem midMax_apply {a b : ℕ} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.maximumf.neutral φ hφ)
    (i : Fin a) (u : Fin 1) :
    multiReduction .maximumf [1] ⟨2, ![a, 1]⟩ src acc h hφ hacc (ix2 i u)
      = (Finset.univ : Finset (Fin b)).fold max (Ideal.ofBits φ acc) (fun j => src (ix3 i j (0 : Fin 1))) := by
  refine (Ideal.multiReduction_maximumf_single src acc h hφ hacc (ix2 i u)).trans ?_
  refine congrArg (fun f => (Finset.univ : Finset (Fin b)).fold max (Ideal.ofBits φ acc) f) (funext fun j => ?_)
  refine congrArg src (funext fun ax => Fin.ext ?_)
  have hu : u.val = 0 := by omega
  match ax with
  | ⟨0, _⟩ => rfl
  | ⟨1, _⟩ => rfl
  | ⟨2, _⟩ => exact hu

end Cert.LibRankThree

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.PayValue.lean ====
/-
  The kernel's arithmetic read at an index, on the extended reals.

  * pay3_apply: the last payload at (0, r, o) is max ((sum over h of acc[r,h] * W_a[h,o]) + b_a[o]) 0.
  * pay2_apply: one loop trip adds to the carried accumulator, at (r, h), the rectified pair features summed over the
    128 rows of each of the two chunks of key rows.
  * sum_chunks: a sum over 1024 rows is the sum over four trips of the two 128-row chunk sums of each trip.
  * fold_apply: four trips from the zero accumulator give, at (r, h), the sum over all 1024 key rows.
-/
import proofs.«156443_j12884901888249_2_alg».proof.Proof.Gen.KernelIdeal.Skeleton
import proofs.«156443_j12884901888249_2_alg».proof.Proof.LibPlainDot
import proofs.«156443_j12884901888249_2_alg».proof.Proof.LibRankThree
import proofs.«156443_j12884901888249_2_alg».proof.Proof.LibRowTable
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.PayValue

open Idealize.ShloMosaic Idealize.ShloMosaic.ValueIdx Cert.KernelIdeal Cert.KernelIdeal.Gen

/-- The last payload at (0, r, o): the accumulator's row r through W_a, plus the bias, rectified. -/
theorem pay3_apply (acc : FVec Ideal S128x64 .f32) (wa : Vec Ideal S64x30 .f32) (ba : Vec Ideal S30 .f32) (r : Fin 128) (o : Fin 30) :
    k0_pay3 (F := Ideal) acc wa ba (ix3 (0 : Fin 1) r o) = max ((∑ h : Fin 64, acc (ix2 r h) * wa (ix2 h o)) + ba (ix1 o)) 0 := by
  unfold k0_pay3
  refine (shapeCast_ab_1ab_apply _ _ (0 : Fin 1) r o).trans ?_
  refine congrArg₂ max ?_ Ideal.ofBits_zero_f32
  refine congrArg₂ (· + ·) ?_ ?_
  · exact PlainDot.matmul_zero_apply 128 64 30 none acc wa r o
  · exact (broadcastTo_1b_ab_apply _ _ r o).trans (shapeCast_a_1a_apply _ _ 0 o)

/-- A sum over n blocks of m consecutive numbers, block by block. -/
theorem sum_range_blocks {M : Type*} [AddCommMonoid M] (f : ℕ → M) (m n : ℕ) :
    ∑ i ∈ Finset.range (n * m), f i = ∑ k ∈ Finset.range n, ∑ j ∈ Finset.range m, f (m * k + j) := by
  induction n with
  | zero => simp
  | succ n ih =>
    rw [Nat.succ_mul, Finset.sum_range_add, ih, Finset.sum_range_succ, Nat.mul_comm n m]

/-- A sum over 1024 rows is the sum, over four trips, of the two 128-row chunk sums of each trip. -/
theorem sum_chunks {M : Type*} [AddCommMonoid M] (f : ℕ → M) :
    (∑ j : Fin 1024, f j.val) = ∑ k ∈ Finset.range 4, ((∑ j : Fin 128, f (256 * k + j.val)) + ∑ j : Fin 128, f (256 * k + 128 + j.val)) := by
  refine (Fin.sum_univ_eq_sum_range f 1024).trans ?_
  refine (sum_range_blocks f 256 4).trans ?_
  refine Finset.sum_congr rfl fun k _ => ?_
  refine (Finset.sum_range_add (fun j => f (256 * k + j)) 128 128).trans ?_
  refine congrArg₂ (· + ·) (Fin.sum_univ_eq_sum_range (fun n => f (256 * k + n)) 128).symm ?_
  refine ((Fin.sum_univ_eq_sum_range (fun n => f (256 * k + 128 + n)) 128).trans ?_).symm
  exact Finset.sum_congr rfl fun j _ => congrArg f (Nat.add_assoc _ _ _)

/-! ## One loop trip, operation by operation -/

/-- A [1, 128, 30] block of rows, its unit axis dropped, through a [30, 64] table into the zero splat: at (r, h) the sum
    over d of x[0,r,d] * w[d,h]. -/
theorem proj_apply (x : Vec Ideal S1x128x30 .f32) (w : Vec Ideal S30x64 .f32) (r : Fin 128) (h : Fin 64) :
    matmul (F := Ideal) (φ₁ := .f32) (φ₂ := .f32) dot_S128x30_S30x64_S128x64_1_0_0_1_n_n none (shapeCast S128x30 x shapeCasts_S1x128x30_S128x30)
        (shapeCast S30x64 w shapeCasts_S30x64_S30x64) (constant S128x64 .f32 0x00000000#32) (ix2 r h)
      = ∑ d : Fin 30, x (ix3 (0 : Fin 1) r d) * w (ix2 d h) :=
  (PlainDot.matmul_zero_apply 128 30 64 none _ _ r h).trans
    (Finset.sum_congr rfl fun d _ => congrArg₂ (· * ·) (shapeCast_1ab_ab_apply x _ r d) (congrFun (shapeCast_self w _) _))

/-- The bias vector as a row spread over the 128 rows: at (r, h) the bias at h. -/
theorem bias_apply (b : Vec Ideal S64 .f32) (r : Fin 128) (h : Fin 64) :
    broadcastTo S128x64 (shapeCast S1x64 b shapeCasts_S64_S1x64) broadcasts_S1x64_S128x64 (ix2 r h) = b (ix1 h) :=
  (broadcastTo_1b_ab_apply _ _ r h).trans (shapeCast_a_1a_apply _ _ 0 h)

/-- Column q < 64 of two [128, 64] halves set side by side reads the first half at q. -/
theorem concat_left {α : Type} (x y : S128x64.Idx → α) (r : Fin 128) (q : Fin 64) :
    concatenate S128x128 1 [⟨S128x64, x⟩, ⟨S128x64, y⟩] concatenates_S128x64_S128x64_S128x128_d1
        (ix2 r (⟨q.val, by omega⟩ : Fin 128)) = x (ix2 r q) := by
  refine concatenate_pair_apply_left (t := S128x128) 1 x y _ _ rfl (ix2 r q) fun b => ?_
  match b with
  | ⟨0, _⟩ => rfl
  | ⟨1, _⟩ => rfl

/-- Column 64 + q reads the second half at q. -/
theorem concat_right {α : Type} (x y : S128x64.Idx → α) (r : Fin 128) (q : Fin 64) :
    concatenate S128x128 1 [⟨S128x64, x⟩, ⟨S128x64, y⟩] concatenates_S128x64_S128x64_S128x128_d1
        (ix2 r (⟨64 + q.val, by omega⟩ : Fin 128)) = y (ix2 r q) := by
  refine concatenate_pair_apply_right (t := S128x128) 1 x y _ _ rfl rfl (ix2 r q) (fun b hb => ?_) ?_
  · match b with
    | ⟨0, _⟩ => rfl
    | ⟨1, _⟩ => exact absurd rfl hb
  · show q.val + 64 = 64 + q.val
    omega

/-- A [128, 128] array A spread as [128, 1, 128] over a new middle axis, plus a [128, 128] array B spread as [1, 128, 128]
    over a new leading axis, rectified and summed along the middle axis: at (r, c) the sum over j of
    max (A[r,c] + B[j,c]) 0. -/
theorem core_apply (A B : FVec Ideal S128x128 .f32) (r c : Fin 128) :
    multiReduction (F := Ideal) .add [1] S128x128
        (maximumf
          (addf (broadcastTo S128x128x128 (shapeCast S128x1x128 A shapeCasts_S128x128_S128x1x128) broadcasts_S128x1x128_S128x128x128)
            (broadcastTo S128x128x128 (shapeCast S1x128x128 B shapeCasts_S128x128_S1x128x128) broadcasts_S1x128x128_S128x128x128))
          (broadcast S128x128x128 (Scalar.ofBits .f32 0x00000000#32)))
        0x00000000#32 reduces_S128x128x128_S128x128 (.inl rfl) rfl (ix2 r c)
      = ∑ j : Fin 128, max (A (ix2 r c) + B (ix2 j c)) 0 := by
  refine (LibRankThree.midSum_apply _ _ _ _ _ r c).trans ?_
  refine Finset.sum_congr rfl fun j _ => ?_
  refine congrArg₂ max (congrArg₂ (· + ·) ?_ ?_) Ideal.ofBits_zero_f32
  · exact (LibRankThree.broadcastTo_a1c_abc_apply _ _ r j c).trans (LibRankThree.shapeCast_ac_a1c_apply A _ r 0 c)
  · exact (LibRowTable.broadcastTo_1bc_abc_apply _ _ r j c).trans (shapeCast_ab_1ab_apply B _ 0 j c)

/-- One loop trip at (r, h): the carried accumulator plus, for each of the two chunks of key rows, the sum over the
    chunk's 128 rows of the rectified pair feature. -/
theorem pay2_apply (v0 : Vec Ideal S1x128x30 .f32) (v2 : Vec Ideal S30x64 .f32) (v5 : Vec Ideal S64 .f32) (acc : FVec Ideal S128x64 .f32)
    (v29 v32 : Vec Ideal S1x128x30 .f32) (v34 v37 : Vec Ideal S30x64 .f32) (r : Fin 128) (h : Fin 64) :
    k0_pay2 (F := Ideal) v0 v2 v5 acc v29 v32 v34 v37 (ix2 r h)
      = acc (ix2 r h)
        + (∑ j : Fin 128, max (((∑ d : Fin 30, v0 (ix3 (0 : Fin 1) r d) * v2 (ix2 d h)) + v5 (ix1 h)) + (∑ d : Fin 30, v29 (ix3 (0 : Fin 1) j d) * v34 (ix2 d h))) 0)
        + (∑ j : Fin 128, max (((∑ d : Fin 30, v0 (ix3 (0 : Fin 1) r d) * v2 (ix2 d h)) + v5 (ix1 h)) + (∑ d : Fin 30, v32 (ix3 (0 : Fin 1) j d) * v37 (ix2 d h))) 0) := by
  unfold k0_pay2
  refine (addf_apply _ _ _).trans ?_
  refine congrArg₂ (· + ·) ((addf_apply _ _ _).trans (congrArg₂ (· + ·) rfl ?_)) ?_
  · refine (extractStridedSlice_apply _ _ _ (ix2 r h) (ix2 r (⟨h.val, by omega⟩ : Fin 128)) fun a => ?_).trans ?_
    · match a with
      | ⟨0, _⟩ => show r.val = 0 + r.val; omega
      | ⟨1, _⟩ => show h.val = 0 + h.val; omega
    refine (core_apply _ _ r _).trans (Finset.sum_congr rfl fun j _ => ?_)
    refine congrArg₂ max (congrArg₂ (· + ·) ?_ ?_) rfl
    · exact (concat_left _ _ r h).trans (congrArg₂ (· + ·) (proj_apply v0 v2 r h) (bias_apply v5 r h))
    · exact (concat_left _ _ j h).trans (proj_apply v29 v34 j h)
  · refine (extractStridedSlice_apply _ _ _ (ix2 r h) (ix2 r (⟨64 + h.val, by omega⟩ : Fin 128)) fun a => ?_).trans ?_
    · match a with
      | ⟨0, _⟩ => show r.val = 0 + r.val; omega
      | ⟨1, _⟩ => show 64 + h.val = 64 + h.val; rfl
    refine (core_apply _ _ r _).trans (Finset.sum_congr rfl fun j _ => ?_)
    refine congrArg₂ max (congrArg₂ (· + ·) ?_ ?_) rfl
    · exact (concat_right _ _ r h).trans (congrArg₂ (· + ·) (proj_apply v0 v2 r h) (bias_apply v5 r h))
    · exact (concat_right _ _ j h).trans (proj_apply v32 v37 j h)

/-! ## The loop's closed form -/

/-- The rectified pair feature of key row n against a fixed query value P at column h; zero past the 1024 rows. -/
def rowTerm (zf : Vec Ideal S1x1024x30 .f32) (w : Vec Ideal S30x64 .f32) (P : EReal) (h : Fin 64) (n : ℕ) : EReal :=
  if hn : n < 1024 then max (P + ∑ d : Fin 30, zf (ix3 (0 : Fin 1) (⟨n, hn⟩ : Fin 1024) d) * w (ix2 d h)) 0 else 0

theorem rowTerm_of_lt (zf : Vec Ideal S1x1024x30 .f32) (w : Vec Ideal S30x64 .f32) (P : EReal) (h : Fin 64) (n : ℕ) (hn : n < 1024) :
    rowTerm zf w P h n = max (P + ∑ d : Fin 30, zf (ix3 (0 : Fin 1) (⟨n, hn⟩ : Fin 1024) d) * w (ix2 d h)) 0 :=
  dif_pos hn

/-- Four trips from the zero accumulator, trip k reading the key rows 256 k … 256 k + 127 and 256 k + 128 … 256 k + 255:
    at (r, h) the sum over all 1024 key rows of the rectified pair feature. -/
theorem fold_apply (v0 : Vec Ideal S1x128x30 .f32) (v2 : Vec Ideal S30x64 .f32) (v5 : Vec Ideal S64 .f32) (w : Vec Ideal S30x64 .f32)
    (zf : Vec Ideal S1x1024x30 .f32)
    (st : ℕ → FVec Ideal S128x64 .f32) (c1 c2 : ℕ → Vec Ideal S1x128x30 .f32)
    (h0 : st 0 = k0_pay1 (F := Ideal))
    (hs : ∀ k, k < 4 → st (k + 1) = k0_pay2 (F := Ideal) v0 v2 v5 (st k) (c1 k) (c2 k) w w)
    (hc1 : ∀ k (hk : k < 4) (j : Fin 128) (d : Fin 30),
      c1 k (ix3 (0 : Fin 1) j d) = zf (ix3 (0 : Fin 1) (⟨256 * k + j.val, by omega⟩ : Fin 1024) d))
    (hc2 : ∀ k (hk : k < 4) (j : Fin 128) (d : Fin 30),
      c2 k (ix3 (0 : Fin 1) j d) = zf (ix3 (0 : Fin 1) (⟨256 * k + 128 + j.val, by omega⟩ : Fin 1024) d))
    (r : Fin 128) (h : Fin 64) :
    st 4 (ix2 r h)
      = ∑ j : Fin 1024, max (((∑ d : Fin 30, v0 (ix3 (0 : Fin 1) r d) * v2 (ix2 d h)) + v5 (ix1 h))
          + (∑ d : Fin 30, zf (ix3 (0 : Fin 1) j d) * w (ix2 d h))) 0 := by
  have key : ∀ n, n ≤ 4 → st n (ix2 r h)
      = ∑ k ∈ Finset.range n,
          ((∑ j : Fin 128, rowTerm zf w ((∑ d : Fin 30, v0 (ix3 (0 : Fin 1) r d) * v2 (ix2 d h)) + v5 (ix1 h)) h (256 * k + j.val))
            + ∑ j : Fin 128, rowTerm zf w ((∑ d : Fin 30, v0 (ix3 (0 : Fin 1) r d) * v2 (ix2 d h)) + v5 (ix1 h)) h (256 * k + 128 + j.val)) := by
    intro n
    induction n with
    | zero =>
      intro _
      rw [h0, Finset.sum_range_zero]
      exact Ideal.ofBits_zero_f32
    | succ n ih =>
      intro hn
      have hn4 : n < 4 := hn
      rw [hs n hn4, pay2_apply, ih (Nat.le_of_lt hn4), Finset.sum_range_succ, add_assoc]
      refine congrArg₂ (· + ·) rfl (congrArg₂ (· + ·) ?_ ?_)
      · refine Finset.sum_congr rfl fun j _ => ?_
        have hj : 256 * n + j.val < 1024 := by have := j.isLt; omega
        rw [rowTerm_of_lt zf w _ h _ hj]
        exact congrArg₂ max (congrArg₂ (· + ·) rfl (Finset.sum_congr rfl fun d _ => congrArg₂ (· * ·) (hc1 n hn4 j d) rfl)) rfl
      · refine Finset.sum_congr rfl fun j _ => ?_
        have hj : 256 * n + 128 + j.val < 1024 := by have := j.isLt; omega
        rw [rowTerm_of_lt zf w _ h _ hj]
        exact congrArg₂ max (congrArg₂ (· + ·) rfl (Finset.sum_congr rfl fun d _ => congrArg₂ (· * ·) (hc2 n hn4 j d) rfl)) rfl
  refine (key 4 (Nat.le_refl 4)).trans ?_
  refine (sum_chunks (rowTerm zf w ((∑ d : Fin 30, v0 (ix3 (0 : Fin 1) r d) * v2 (ix2 d h)) + v5 (ix1 h)) h)).symm.trans ?_
  exact Finset.sum_congr rfl fun j _ => rowTerm_of_lt zf w _ h j.val j.isLt

end Cert.PayValue

end
-- ==== Proof.KI.OutValue.lean ====
/-
  What the body leaves in the result tile, index by index, on the extended reals.

  The chunk loads of trip k read the batch rows 256 k + j and 256 k + 128 + j; the loads through the whole-buffer
  rectangles read the buffers themselves; so the result tile at (0, r, o) is
  max ((sum over h of (sum over the 1024 key rows j of max (zi[r,h] + b_r[h] + zj[j,h]) 0) * W_a[h,o]) + b_a[o]) 0.
-/
import proofs.«156443_j12884901888249_2_alg».proof.Proof.KI.Body
import proofs.«156443_j12884901888249_2_alg».proof.Proof.PayValue

noncomputable section

open scoped BigOperators

namespace Cert.KernelIdeal.HandValue

open Idealize.ShloMosaic Idealize.ShloMosaic.ValueIdx Cert.KernelIdeal Cert.KernelIdeal.Gen Cert.KernelIdeal.Hand

/-! ## The loads -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The loads through the whole-buffer rectangles read the buffers. -/
theorem ld_rTile (x : Vec Ideal S1x128x30 .f32) : View.ld x rTile = x := View.ld_unit_zero (S := S1x128x30) hz3 _ x
theorem ld_rW (x : Vec Ideal S30x64 .f32) : View.ld x rW = x := View.ld_unit_zero (S := S30x64) hz2 _ x
theorem ld_rB (x : Vec Ideal S64 .f32) : View.ld x rB = x := View.ld_unit_zero (S := S64) hz1 _ x
theorem ld_rWa (x : Vec Ideal S64x30 .f32) : View.ld x rWa = x := View.ld_unit_zero (S := S64x30) hz2 _ x
theorem ld_rBa (x : Vec Ideal S30 .f32) : View.ld x rBa = x := View.ld_unit_zero (S := S30) hz1 _ x

/-- The loop runs four trips. -/
theorem trips_eq : k0_t1_loop.trips = 4 := by decide

/-- Trip k's first chunk at (0, j, d) is the batch at row 256 k + j. -/
theorem ld_chunk1 (x1 : Vec Ideal S1x1024x30 .f32) (k : Fin k0_t1_loop.trips) (j : Fin 128) (d : Fin 30) :
    View.ld x1 (rC1 k) (ix3 (0 : Fin 1) j d)
      = x1 (ix3 (0 : Fin 1) (⟨256 * k.val + j.val, by have := k.isLt; have := k0_t1_abs.2.1; have := j.isLt; omega⟩ : Fin 1024) d) := by
  show x1 ((rC1 k).idx (ix3 (0 : Fin 1) j d)) = _
  refine congrArg x1 (funext fun a => Fin.ext ?_)
  have ho := k0_off1_eq k
  match a with
  | ⟨0, _⟩ =>
    show k0_off1 k 0 + 1 * 0 = 0
    rw [ho]; rfl
  | ⟨1, _⟩ =>
    show k0_off1 k 1 + 1 * j.val = 256 * k.val + j.val
    rw [ho]; show 256 * k.val + 1 * j.val = 256 * k.val + j.val; omega
  | ⟨2, _⟩ =>
    show k0_off1 k 2 + 1 * d.val = d.val
    rw [ho]; show 0 + 1 * d.val = d.val; omega

/-- Trip k's second chunk at (0, j, d) is the batch at row 256 k + 128 + j. -/
theorem ld_chunk2 (x1 : Vec Ideal S1x1024x30 .f32) (k : Fin k0_t1_loop.trips) (j : Fin 128) (d : Fin 30) :
    View.ld x1 (rC2 k) (ix3 (0 : Fin 1) j d)
      = x1 (ix3 (0 : Fin 1) (⟨256 * k.val + 128 + j.val, by have := k.isLt; have := k0_t1_abs.2.1; have := j.isLt; omega⟩ : Fin 1024) d) := by
  show x1 ((rC2 k).idx (ix3 (0 : Fin 1) j d)) = _
  refine congrArg x1 (funext fun a => Fin.ext ?_)
  have ho := k0_off2_eq k
  match a with
  | ⟨0, _⟩ =>
    show k0_off2 k 0 + 1 * 0 = 0
    rw [ho]; rfl
  | ⟨1, _⟩ =>
    show k0_off2 k 1 + 1 * j.val = 256 * k.val + 128 + j.val
    rw [ho]; show 256 * k.val + 128 + 1 * j.val = 256 * k.val + 128 + j.val; omega
  | ⟨2, _⟩ =>
    show k0_off2 k 2 + 1 * d.val = d.val
    rw [ho]; show 0 + 1 * d.val = d.val; omega

/-! ## The chunks as functions of the trip number -/

/-- Trip k's first chunk as loaded; past the last trip, the zero block. -/
def chunk1 (x1 : Vec Ideal S1x1024x30 .f32) (k : ℕ) : Vec Ideal S1x128x30 .f32 :=
  if hk : k < k0_t1_loop.trips then View.ld x1 (rC1 ⟨k, hk⟩) else fun _ => (0 : EReal)

/-- Trip k's second chunk as loaded; past the last trip, the zero block. -/
def chunk2 (x1 : Vec Ideal S1x1024x30 .f32) (k : ℕ) : Vec Ideal S1x128x30 .f32 :=
  if hk : k < k0_t1_loop.trips then View.ld x1 (rC2 ⟨k, hk⟩) else fun _ => (0 : EReal)

theorem chunk1_of_lt (x1 : Vec Ideal S1x1024x30 .f32) (k : ℕ) (hk : k < k0_t1_loop.trips) :
    chunk1 x1 k = View.ld x1 (rC1 ⟨k, hk⟩) := dif_pos hk

theorem chunk2_of_lt (x1 : Vec Ideal S1x1024x30 .f32) (k : ℕ) (hk : k < k0_t1_loop.trips) :
    chunk2 x1 k = View.ld x1 (rC2 ⟨k, hk⟩) := dif_pos hk

/-! ## The result tile -/

/-- The result tile at (0, r, o). -/
theorem out0_7_apply (x0 : Vec Ideal S1x128x30 .f32) (x1 : Vec Ideal S1x1024x30 .f32) (x2 x3 : Vec Ideal S30x64 .f32) (x4 : Vec Ideal S64 .f32)
    (x5 : Vec Ideal S64x30 .f32) (x6 : Vec Ideal S30 .f32) (r : Fin 128) (o : Fin 30) :
    out0_7 (F := Ideal) x0 x1 x2 x3 x4 x5 x6 (ix3 (0 : Fin 1) r o)
      = max ((∑ h : Fin 64, (∑ j : Fin 1024, max (((∑ d : Fin 30, x0 (ix3 (0 : Fin 1) r d) * x2 (ix2 d h)) + x4 (ix1 h))
          + (∑ d : Fin 30, x1 (ix3 (0 : Fin 1) j d) * x3 (ix2 d h))) 0) * x5 (ix2 h o)) + x6 (ix1 o)) 0 := by
  have hs : ∀ k, k < 4 → accTo x0 x1 x2 x3 x4 (k + 1)
      = k0_pay2 (F := Ideal) x0 x2 x4 (accTo x0 x1 x2 x3 x4 k) (chunk1 x1 k) (chunk2 x1 k) x3 x3 := by
    intro k hk
    have hk' : k < k0_t1_loop.trips := by rw [trips_eq]; exact hk
    refine (accTo_succ x0 x1 x2 x3 x4 ⟨k, hk'⟩).trans ?_
    rw [ld_rTile, ld_rW, ld_rW, ld_rB, chunk1_of_lt x1 k hk', chunk2_of_lt x1 k hk']
  have hc1 : ∀ k (hk : k < 4) (j : Fin 128) (d : Fin 30),
      chunk1 x1 k (ix3 (0 : Fin 1) j d) = x1 (ix3 (0 : Fin 1) (⟨256 * k + j.val, by omega⟩ : Fin 1024) d) := by
    intro k hk j d
    have hk' : k < k0_t1_loop.trips := by rw [trips_eq]; exact hk
    rw [chunk1_of_lt x1 k hk']
    exact ld_chunk1 x1 ⟨k, hk'⟩ j d
  have hc2 : ∀ k (hk : k < 4) (j : Fin 128) (d : Fin 30),
      chunk2 x1 k (ix3 (0 : Fin 1) j d) = x1 (ix3 (0 : Fin 1) (⟨256 * k + 128 + j.val, by omega⟩ : Fin 1024) d) := by
    intro k hk j d
    have hk' : k < k0_t1_loop.trips := by rw [trips_eq]; exact hk
    rw [chunk2_of_lt x1 k hk']
    exact ld_chunk2 x1 ⟨k, hk'⟩ j d
  unfold out0_7
  rw [View.canon_unit_zero (S := S1x128x30) hz3, ld_rWa, ld_rBa]
  refine (PayValue.pay3_apply _ x5 x6 r o).trans ?_
  refine congrArg₂ max (congrArg₂ (· + ·) (Finset.sum_congr rfl fun h _ => congrArg₂ (· * ·) ?_ rfl) rfl) rfl
  rw [trips_eq]
  exact PayValue.fold_apply x0 x2 x4 x3 x1 (accTo x0 x1 x2 x3 x4) (chunk1 x1) (chunk2 x1) rfl hs hc1 hc2 r h

end Cert.KernelIdeal.HandValue

end
-- ==== Proof.Spec.lean ====
/-
  The function both programs compute, stated once over literal shapes on the extended reals.

  For a batch b, a query row n and an output column o:
    zi b n h = sum over d of z[b,n,d] * W_r[d,h]            (the first thirty rows of W_r)
    zj b j h = sum over d of z[b,j,d] * W_r[30+d,h]         (the last thirty rows)
    pair b n j h = max (zi b n h + zj b j h + b_r[h]) 0
    rsum b n h = sum over the 1024 rows j of pair b n j h
    G[b,n,o] = max ((sum over h of rsum b n h * W_a[h,o]) + b_a[o]) 0
-/
import Idealize.ShloMosaic.PureOps.Ideal
import Idealize.ShloMosaic.Lib.ValueIdx

noncomputable section

open scoped BigOperators

namespace Cert.Spec

open Idealize.ShloMosaic Idealize.ShloMosaic.ValueIdx

/-- Row `d` of the first half of the 60-row weight table. -/
abbrev rowI (d : Fin 30) : Fin 60 := ⟨d.val, by have := d.isLt; omega⟩
/-- Row `30 + d`: the second half. -/
abbrev rowJ (d : Fin 30) : Fin 60 := ⟨d.val + 30, by have := d.isLt; omega⟩

variable (z : (⟨3, ![2, 1024, 30]⟩ : Shape).Idx → EReal) (Wr : (⟨2, ![60, 64]⟩ : Shape).Idx → EReal)
  (br : (⟨1, ![64]⟩ : Shape).Idx → EReal) (Wa : (⟨2, ![64, 30]⟩ : Shape).Idx → EReal) (ba : (⟨1, ![30]⟩ : Shape).Idx → EReal)

/-- The query row's projection through the first half of the table. -/
def zi (b : Fin 2) (n : Fin 1024) (h : Fin 64) : EReal := ∑ d : Fin 30, z (ix3 b n d) * Wr (ix2 (rowI d) h)
/-- The key row's projection through the second half. -/
def zj (b : Fin 2) (j : Fin 1024) (h : Fin 64) : EReal := ∑ d : Fin 30, z (ix3 b j d) * Wr (ix2 (rowJ d) h)
/-- One pair's rectified feature. -/
def pair (b : Fin 2) (n j : Fin 1024) (h : Fin 64) : EReal := max (zi z Wr b n h + zj z Wr b j h + br (ix1 h)) 0
/-- The features summed over every key row. -/
def rsum (b : Fin 2) (n : Fin 1024) (h : Fin 64) : EReal := ∑ j : Fin 1024, pair z Wr br b n j h
/-- The result: the second linear layer on the summed features, rectified. -/
def G : (⟨3, ![2, 1024, 30]⟩ : Shape).Idx → EReal := fun i =>
  max ((∑ h : Fin 64, rsum z Wr br (i 0) (i 1) h * Wa (ix2 h (i 2))) + ba (ix1 (i 2))) 0

end Cert.Spec

end
-- ==== Proof.KI.Final.lean ====
/-
  The kernel's result array after the run, at the ideal values, is the specification's function of the launch contents.

  Grid point t = (b, i) writes back the tile of rows 128 i .. 128 i + 127 of batch b.  Its query tile window sits on
  the same rows of the batch array, its whole-batch window on batch b, and the five small windows on their whole
  arrays; the two weight halves are the slices of the 60-row table at rows d and 30 + d.  So the tile written back is
  the restriction of the specification to those rows, and the sixteen tiles cover the array.
-/
import proofs.«156443_j12884901888249_2_alg».proof.Proof.KI.Run
import proofs.«156443_j12884901888249_2_alg».proof.Proof.KI.OutValue
import proofs.«156443_j12884901888249_2_alg».proof.Proof.Spec
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The specification at core `c`'s launch contents. -/
abbrev Gm (c : Dev nD) : S2x1024x30.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4))

/-! ## The two halves of the weight table -/

theorem V_main_v0_apply (c : Dev nD) (d : Fin 30) (h : Fin 64) :
    V m c main_v0 (ix2 d h) = m ((c : Thread nD τ).loc main_arg1) (ix2 (Cert.Spec.rowI d) h) := by
  have e : (V m c main_v0 : S30x64.Idx → EReal)
      = extractStridedSlice S30x64 ![0, 0] (m ((c : Thread nD τ).loc main_arg1)) slices_S60x64_S30x64_0_0 := by
    dsimp only [V, hostOps0]; after_results
  rw [e]
  exact extractStridedSlice_apply ![0, 0] _ slices_S60x64_S30x64_0_0 (ix2 d h) (ix2 (Cert.Spec.rowI d) h) (fun a => match a with
    | ⟨0, _⟩ => by show d.val = 0 + d.val; omega
    | ⟨1, _⟩ => by show h.val = 0 + h.val; omega)

theorem V_main_v1_apply (c : Dev nD) (d : Fin 30) (h : Fin 64) :
    V m c main_v1 (ix2 d h) = m ((c : Thread nD τ).loc main_arg1) (ix2 (Cert.Spec.rowJ d) h) := by
  have e : (V m c main_v1 : S30x64.Idx → EReal)
      = extractStridedSlice S30x64 ![30, 0] (m ((c : Thread nD τ).loc main_arg1)) slices_S60x64_S30x64_30_0 := by
    dsimp only [V, hostOps0]; after_results
  rw [e]
  exact extractStridedSlice_apply ![30, 0] _ slices_S60x64_S30x64_30_0 (ix2 d h) (ix2 (Cert.Spec.rowJ d) h) (fun a => match a with
    | ⟨0, _⟩ => by show d.val + 30 = 30 + d.val; omega
    | ⟨1, _⟩ => by show h.val = 0 + h.val; omega)

/-! ## The printed index maps, decided over the grid -/

theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) ≤ 1 ∧ win0_7.index t (1 : Fin 3) ≤ 7 ∧ win0_7.index t (2 : Fin 3) = 0 :=
  (by decide +kernel : ∀ t : Fin grid0.N, _)

/-- Every tile of the result array is some point's. -/
theorem idx_onto : ∀ (q0 : Fin 2) (q1 : Fin 8), ∃ t : Fin cfg0.N, win0_7.index t = ![q0.val, q1.val, 0] :=
  (by decide +kernel : ∀ (q0 : Fin 2) (q1 : Fin 8), ∃ t : Fin grid0.N, win0_7.index t = ![q0.val, q1.val, 0])

/-! ## The input blocks at a point, read at an index -/

section Blocks

variable (c : Dev nD) (t : Fin cfg0.N)

/-- The array index of element `(0, r, o)` of the tile point `t` writes back. -/
abbrev tgt (r : Fin 128) (o : Fin 30) : S2x1024x30.Idx := ((cfg0.win 7).blk t).view.emb (ix3 (0 : Fin 1) r o)

theorem tgt_2 (r : Fin 128) (o : Fin 30) : tgt t r o 2 = o := by
  obtain ⟨-, -, -, -, -, -, -, -, -, -, -, -, -, -, -, -, e7⟩ := idx_facts t
  apply Fin.ext
  show win0_7.index t (2 : Fin 3) * 30 + 1 * o.val = o.val
  omega

theorem blk0_apply (r : Fin 128) (o : Fin 30) (d : Fin 30) :
    iblk m c 0 t (ix3 (0 : Fin 1) r d) = m ((c : Thread nD τ).loc main_arg0) (ix3 (tgt t r o 0) (tgt t r o 1) d) := by
  obtain ⟨e0, e1, e2, -⟩ := idx_facts t
  show V m c main_arg0 (((cfg0.win 0).blk t).view.emb (ix3 (0 : Fin 1) r d)) = _
  rw [V_main_arg0]
  refine congrArg _ (funext fun a => Fin.ext ?_)
  match a with
  | ⟨0, _⟩ => show win0_0.index t (0 : Fin 3) * 1 + 1 * 0 = win0_7.index t (0 : Fin 3) * 1 + 1 * 0; omega
  | ⟨1, _⟩ => show win0_0.index t (1 : Fin 3) * 128 + 1 * r.val = win0_7.index t (1 : Fin 3) * 128 + 1 * r.val; omega
  | ⟨2, _⟩ => show win0_0.index t (2 : Fin 3) * 30 + 1 * d.val = d.val; omega

theorem blk1_apply (r : Fin 128) (o : Fin 30) (j : Fin 1024) (d : Fin 30) :
    iblk m c 1 t (ix3 (0 : Fin 1) j d) = m ((c : Thread nD τ).loc main_arg0) (ix3 (tgt t r o 0) j d) := by
  obtain ⟨-, -, -, e0, e1, e2, -⟩ := idx_facts t
  show V m c main_arg0 (((cfg0.win 1).blk t).view.emb (ix3 (0 : Fin 1) j d)) = _
  rw [V_main_arg0]
  refine congrArg _ (funext fun a => Fin.ext ?_)
  match a with
  | ⟨0, _⟩ => show win0_1.index t (0 : Fin 3) * 1 + 1 * 0 = win0_7.index t (0 : Fin 3) * 1 + 1 * 0; omega
  | ⟨1, _⟩ => show win0_1.index t (1 : Fin 3) * 1024 + 1 * j.val = j.val; omega
  | ⟨2, _⟩ => show win0_1.index t (2 : Fin 3) * 30 + 1 * d.val = d.val; omega

theorem blk2_apply (d : Fin 30) (h : Fin 64) :
    iblk m c 2 t (ix2 d h) = m ((c : Thread nD τ).loc main_arg1) (ix2 (Cert.Spec.rowI d) h) := by
  obtain ⟨-, -, -, -, -, -, e0, e1, -⟩ := idx_facts t
  show V m c main_v0 (((cfg0.win 2).blk t).view.emb (ix2 d h)) = _
  rw [← V_main_v0_apply m c d h]
  refine congrArg _ (funext fun a => Fin.ext ?_)
  match a with
  | ⟨0, _⟩ => show win0_2.index t (0 : Fin 2) * 30 + 1 * d.val = d.val; omega
  | ⟨1, _⟩ => show win0_2.index t (1 : Fin 2) * 64 + 1 * h.val = h.val; omega

theorem blk3_apply (d : Fin 30) (h : Fin 64) :
    iblk m c 3 t (ix2 d h) = m ((c : Thread nD τ).loc main_arg1) (ix2 (Cert.Spec.rowJ d) h) := by
  obtain ⟨-, -, -, -, -, -, -, -, e0, e1, -⟩ := idx_facts t
  show V m c main_v1 (((cfg0.win 3).blk t).view.emb (ix2 d h)) = _
  rw [← V_main_v1_apply m c d h]
  refine congrArg _ (funext fun a => Fin.ext ?_)
  match a with
  | ⟨0, _⟩ => show win0_3.index t (0 : Fin 2) * 30 + 1 * d.val = d.val; omega
  | ⟨1, _⟩ => show win0_3.index t (1 : Fin 2) * 64 + 1 * h.val = h.val; omega

theorem blk4_apply (h : Fin 64) : iblk m c 4 t (ix1 h) = m ((c : Thread nD τ).loc main_arg2) (ix1 h) := by
  obtain ⟨-, -, -, -, -, -, -, -, -, -, e0, -⟩ := idx_facts t
  show V m c main_arg2 (((cfg0.win 4).blk t).view.emb (ix1 h)) = _
  rw [V_main_arg2]
  refine congrArg _ (funext fun a => Fin.ext ?_)
  match a with
  | ⟨0, _⟩ => show win0_4.index t (0 : Fin 1) * 64 + 1 * h.val = h.val; omega

theorem blk5_apply (h : Fin 64) (o : Fin 30) : iblk m c 5 t (ix2 h o) = m ((c : Thread nD τ).loc main_arg3) (ix2 h o) := by
  obtain ⟨-, -, -, -, -, -, -, -, -, -, -, e0, e1, -⟩ := idx_facts t
  show V m c main_arg3 (((cfg0.win 5).blk t).view.emb (ix2 h o)) = _
  rw [V_main_arg3]
  refine congrArg _ (funext fun a => Fin.ext ?_)
  match a with
  | ⟨0, _⟩ => show win0_5.index t (0 : Fin 2) * 64 + 1 * h.val = h.val; omega
  | ⟨1, _⟩ => show win0_5.index t (1 : Fin 2) * 30 + 1 * o.val = o.val; omega

theorem blk6_apply (o : Fin 30) : iblk m c 6 t (ix1 o) = m ((c : Thread nD τ).loc main_arg4) (ix1 o) := by
  obtain ⟨-, -, -, -, -, -, -, -, -, -, -, -, -, e0, -⟩ := idx_facts t
  show V m c main_arg4 (((cfg0.win 6).blk t).view.emb (ix1 o)) = _
  rw [V_main_arg4]
  refine congrArg _ (funext fun a => Fin.ext ?_)
  match a with
  | ⟨0, _⟩ => show win0_6.index t (0 : Fin 1) * 30 + 1 * o.val = o.val; omega

end Blocks

/-! ## What a point writes back -/

/-- What point `t` writes back is tile `t` of the specification at the launch contents. -/
theorem flushed7_eq (c : Dev nD) (t : Fin cfg0.N) :
    (dats m 0 c).flushed 7 t = ((cfg0.win 7).blk t).view.read (Elt Ideal) (Gm m c) := by
  show (cfg0.win 7).cut (grid0.coords t) ((dats m 0 c).after 7 t) = _
  rw [after0_7]
  funext j
  obtain ⟨u, r, o, rfl⟩ : ∃ (u : Fin 1) (r : Fin 128) (o : Fin 30), j = ix3 u r o := ⟨j 0, j 1, j 2, eq_ix3 j⟩
  obtain rfl : u = 0 := Subsingleton.elim _ _
  refine (out0_7_apply _ _ _ _ _ _ _ r o).trans ?_
  show _ = Cert.Spec.G _ _ _ _ _ (tgt t r o)
  unfold Cert.Spec.G Cert.Spec.rsum Cert.Spec.pair Cert.Spec.zi Cert.Spec.zj
  rw [tgt_2 t r o, blk6_apply]
  refine congrArg (fun x => max (x + _) 0) (Finset.sum_congr rfl fun h _ => ?_)
  rw [blk5_apply, blk4_apply]
  refine congrArg (· * _) (Finset.sum_congr rfl fun j _ => ?_)
  refine congrArg (fun x => max x 0) ?_
  rw [add_right_comm]
  refine congrArg₂ (fun x y => x + y + _) (Finset.sum_congr rfl fun d _ => ?_) (Finset.sum_congr rfl fun d _ => ?_)
  · rw [blk0_apply m c t r o d, blk2_apply]
  · rw [blk1_apply m c t r o j d, blk3_apply]

/-! ## The sixteen tiles cover the array -/

theorem mem_blk7 (t : Fin cfg0.N) (i : S2x1024x30.Idx) :
    i ∈ ((cfg0.win 7).blk t).view.set ↔ ∀ a : Fin 3, win0_7.index t a * S1x128x30.size a ≤ (i a).val ∧ (i a).val < win0_7.index t a * S1x128x30.size a + S1x128x30.size a := by
  show i ∈ ((View.whole main_v2).slice (win0_7.rect t)).set ↔ _
  rw [View.set_slice_whole, Rect.mem_set_unit]
  exact Iff.rfl

theorem cover7 (i : S2x1024x30.Idx) : ∃ t : Fin cfg0.N, (cfg0.win 7).flush t = true ∧ i ∈ ((cfg0.win 7).blk t).view.set := by
  have hi0 : (i 0).val < 2 := (i 0).isLt
  have hi1 : (i 1).val < 1024 := (i 1).isLt
  have hi2 : (i 2).val < 30 := (i 2).isLt
  obtain ⟨t, ht⟩ := idx_onto ⟨(i 0).val, by omega⟩ ⟨(i 1).val / 128, by omega⟩
  have q0 : win0_7.index t (0 : Fin 3) = (i 0).val := congrFun ht 0
  have q1 : win0_7.index t (1 : Fin 3) = (i 1).val / 128 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 30 ≤ (i 2).val ∧ (i 2).val < win0_7.index t (2 : Fin 3) * 30 + 30; omega

/-- The result array after the run. -/
theorem final7 (c : Dev nD) : (dats m 0 c).arrAt 7 cfg0.N = Gm m c :=
  (dats m 0 c).arrAt_eq_of_cover 7 (Gm m c) (fun t _ => flushed7_eq m c t) cover7

/-- The run at the ideal values: the result array ends at the specification of the launch contents, the arguments as
    launched. -/
theorem run : θ_run (defs (F := Ideal)) (onTc (τ := τ) (main (F := Ideal))) ⟨m, fun _ => 0, ρ⟩ (fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c)))⟩) (run_main m ρ)

end Cert.KernelIdeal.HandValue

end
-- ==== Proof.RefIsG.lean ====
/-
  The reference program's result, read at one index, is the specification's function G.

  Each stage of the reference is read at an index with explicit coordinates: the two thirty-term projections
  are zi and zj, their broadcast sum plus the bias rectified is pair, the sum over the 1024 key rows is rsum, and
  the second projection plus its bias rectified is G.
-/
import proofs.«156443_j12884901888249_2_alg».proof.Proof.Gen.ReferenceIdeal.Read
import proofs.«156443_j12884901888249_2_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Read Idealize.ShloMosaic Idealize.ShloMosaic.ValueIdx Cert.Spec

variable (x0 : (⟨S2x1024x30, .f32⟩ : BufTy).Contents (Elt Ideal)) (x1 : (⟨S60x64, .f32⟩ : BufTy).Contents (Elt Ideal))
  (x2 : (⟨S64, .f32⟩ : BufTy).Contents (Elt Ideal)) (x3 : (⟨S64x30, .f32⟩ : BufTy).Contents (Elt Ideal))
  (x4 : (⟨S30, .f32⟩ : BufTy).Contents (Elt Ideal))

/-- The first projection at (b, n, h) is the sum over d of z[b,n,d] * W_r[d,h]. -/
theorem v1_at (b : Fin 2) (n : Fin 1024) (h : Fin 64) :
    val_main_v1 (F := Ideal) x0 x1 (ix3 b n h) = zi x0 x1 b n h := by
  rw [val_main_v1_apply]
  unfold zi
  refine Finset.sum_congr rfl fun d _ => ?_
  rw [val_main_v0_apply]
  have e1 : lidx_main_v1 (ix3 b n h) d = ix3 b n d :=
    funext fun a => Fin.ext (by match a with | ⟨0, _⟩ => rfl | ⟨1, _⟩ => rfl | ⟨2, _⟩ => rfl)
  have e2 : idx_main_v0 (ridx_main_v1 (ix3 b n h) d) = ix2 (rowI d) h :=
    funext fun a => Fin.ext (by match a with | ⟨0, _⟩ => rfl | ⟨1, _⟩ => rfl)
  rw [e1, e2]

/-- The second projection at (b, j, h) is the sum over d of z[b,j,d] * W_r[30+d,h]. -/
theorem v3_at (b : Fin 2) (j : Fin 1024) (h : Fin 64) :
    val_main_v3 (F := Ideal) x0 x1 (ix3 b j h) = zj x0 x1 b j h := by
  rw [val_main_v3_apply]
  unfold zj
  refine Finset.sum_congr rfl fun d _ => ?_
  rw [val_main_v2_apply]
  have e1 : lidx_main_v3 (ix3 b j h) d = ix3 b j d :=
    funext fun a => Fin.ext (by match a with | ⟨0, _⟩ => rfl | ⟨1, _⟩ => rfl | ⟨2, _⟩ => rfl)
  have e2 : idx_main_v2 (ridx_main_v3 (ix3 b j h) d) = ix2 (rowJ d) h :=
    funext fun a => Fin.ext (by
      match a with
      | ⟨0, _⟩ => show 30 + d.val = d.val + 30; omega
      | ⟨1, _⟩ => rfl)
  rw [e1, e2]

/-- The zero word is the extended real zero. -/
theorem zero_word : (FloatOps.ofBits (F := Ideal) .f32 0x00000000#32 : EReal) = 0 := Ideal.ofBits_zero_f32

/-- The rectified pair feature at (b, n, j, h). -/
theorem v12_at (b : Fin 2) (n j : Fin 1024) (h : Fin 64) :
    val_main_v12 (F := Ideal) x0 x1 x2 (ix4 b n j h) = pair x0 x1 x2 b n j h := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply, zero_word]
  have e1 : idx_main_v4 (idx_main_v6 (ix4 b n j h)) = ix3 b n h :=
    funext fun a => Fin.ext (by match a with | ⟨0, _⟩ => rfl | ⟨1, _⟩ => rfl | ⟨2, _⟩ => rfl)
  have e2 : idx_main_v5 (idx_main_v7 (ix4 b n j h)) = ix3 b j h :=
    funext fun a => Fin.ext (by match a with | ⟨0, _⟩ => rfl | ⟨1, _⟩ => rfl | ⟨2, _⟩ => rfl)
  have e3 : idx_main_v9 (idx_main_v10 (ix4 b n j h)) = ix1 h :=
    funext fun a => Fin.ext (by match a with | ⟨0, _⟩ => rfl)
  rw [e1, e2, e3, v1_at, v3_at]
  rfl

/-- The features summed over the key rows at (b, n, h). -/
theorem v13_at (b : Fin 2) (n : Fin 1024) (h : Fin 64) :
    val_main_v13 (F := Ideal) x0 x1 x2 (ix3 b n h) = rsum x0 x1 x2 b n h := by
  rw [val_main_v13_apply, val_main_cst_apply, zero_word, zero_add]
  unfold rsum
  refine Finset.sum_congr rfl fun j _ => ?_
  have e1 : idx_main_v13 (ix3 b n h) j = ix4 b n j h :=
    funext fun a => Fin.ext (by match a with | ⟨0, _⟩ => rfl | ⟨1, _⟩ => rfl | ⟨2, _⟩ => rfl | ⟨3, _⟩ => rfl)
  rw [e1, v12_at]

/-- The reference's result is G. -/
theorem ref_eq_G :
    val_main_v18 (F := Ideal) x0 x1 x2 x3 x4 = G x0 x1 x2 x3 x4 := by
  funext i
  obtain ⟨b, n, o, rfl⟩ : ∃ (b : Fin 2) (n : Fin 1024) (o : Fin 30), i = ix3 b n o := ⟨i 0, i 1, i 2, eq_ix3 i⟩
  rw [val_main_v18_apply, val_main_v17_apply, val_main_v14_apply, val_main_v16_apply, val_main_v15_apply,
    val_main_call1_v0_apply, val_main_call1_cst_apply, zero_word]
  have e3 : idx_main_v15 (idx_main_v16 (ix3 b n o)) = ix1 o :=
    funext fun a => Fin.ext (by match a with | ⟨0, _⟩ => rfl)
  rw [e3]
  have es : (∑ k : Fin 64, val_main_v13 (F := Ideal) x0 x1 x2 (lidx_main_v14 (ix3 b n o) k) * x3 (ridx_main_v14 (ix3 b n o) k))
      = ∑ h : Fin 64, rsum x0 x1 x2 b n h * x3 (ix2 h o) := by
    refine Finset.sum_congr rfl fun k _ => ?_
    have e1 : lidx_main_v14 (ix3 b n o) k = ix3 b n k :=
      funext fun a => Fin.ext (by match a with | ⟨0, _⟩ => rfl | ⟨1, _⟩ => rfl | ⟨2, _⟩ => rfl)
    have e2 : ridx_main_v14 (ix3 b n o) k = ix2 k o :=
      funext fun a => Fin.ext (by match a with | ⟨0, _⟩ => rfl | ⟨1, _⟩ => rfl)
    rw [e1, e2, v13_at]
  rw [es]
  rfl

end Cert.RefValue

end
-- ==== Proof.lean ====
/-
  The certificate: the kernel and its reference compute one function on the extended reals.

  For a batch b, a query row n and an output column o, both programs form the projection of row n through the first
  thirty rows of the first weight table and of every row j through its last thirty rows, add the two and the bias,
  rectify, sum over the 1024 rows j, apply the second linear layer and rectify again.  The kernel adds the bias to the
  query's projection before the key's, where the reference adds it last, and sums the rows j in four passes of two
  chunks of 128 packed side by side where the reference sums them in one; addition on the extended reals is
  commutative and associative, so no finiteness is used and the precondition is never opened.

  The three frames: the kernel's run (at the machine words and at the ideal values) from its body's triple at a generic
  grid point, the batch array dealt in two halves to the two windows that read it; the reference's from its operations'
  composed run.  No operation was rewritten by the idealization, so nothing is owed for it.
-/
import proofs.«156443_j12884901888249_2_alg».proof.Defs
import proofs.«156443_j12884901888249_2_alg».proof.Proof.Gen.Kernel
import proofs.«156443_j12884901888249_2_alg».proof.Proof.Gen.Kernel.Skeleton
import proofs.«156443_j12884901888249_2_alg».proof.Proof.Gen.Kernel.Loops
import proofs.«156443_j12884901888249_2_alg».proof.Proof.Gen.Kernel.Launch
import proofs.«156443_j12884901888249_2_alg».proof.Proof.Gen.Kernel.Points
import proofs.«156443_j12884901888249_2_alg».proof.Proof.Gen.KernelIdeal
import proofs.«156443_j12884901888249_2_alg».proof.Proof.Gen.KernelIdeal.Skeleton
import proofs.«156443_j12884901888249_2_alg».proof.Proof.Gen.KernelIdeal.Loops
import proofs.«156443_j12884901888249_2_alg».proof.Proof.Gen.KernelIdeal.Launch
import proofs.«156443_j12884901888249_2_alg».proof.Proof.Gen.KernelIdeal.Points
import proofs.«156443_j12884901888249_2_alg».proof.Proof.Gen.ReferenceIdeal
import proofs.«156443_j12884901888249_2_alg».proof.Proof.Gen.Pre_finite_inputs
import proofs.«156443_j12884901888249_2_alg».proof.Proof.Gen.ReferenceIdeal.Run
import proofs.«156443_j12884901888249_2_alg».proof.Proof.Gen.ReferenceIdeal.Read
import proofs.«156443_j12884901888249_2_alg».proof.Proof.K.Run
import proofs.«156443_j12884901888249_2_alg».proof.Proof.KI.Run
import proofs.«156443_j12884901888249_2_alg».proof.Proof.KI.Final
import proofs.«156443_j12884901888249_2_alg».proof.Proof.RefIsG
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both runs end with the result array at the specification of the launch
    contents. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HandValue.Gm m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v18_eq _ _ _ _ _).trans (Cert.RefValue.ref_eq_G _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
